-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "pos_big" .f32 0x7149F2CA#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S1x3x3 : Shape := ⟨3, ![1, 3, 3]⟩
abbrev S1x3x1 : Shape := ⟨3, ![1, 3, 1]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S1x3x3 : S_.BroadcastsInDim S1x3x3 (![] : Fin 0 → Fin S1x3x3.rank)
  reducesTo_S1x3x3_S_d0_1_2 : S1x3x3.ReducesTo [0, 1, 2] S_
  bcast_S_S1x3x1 : S_.BroadcastsInDim S1x3x1 (![] : Fin 0 → Fin S1x3x1.rank)
  reducesTo_S1x3x1_S_d0_1_2 : S1x3x1.ReducesTo [0, 1, 2] S_

variable [Facts]

def fn_part1 {F : FTy → Type} [FloatOps F] (main_v13 : IVec S_ 1) (main_v16 : IVec S1x3x1 1) : IVec S_ 1 :=
  let main_c_5 : IVec S_ 1 := constantI S_ 1 1#1
  let main_v17 : IVec S_ 1 := (fun x v => Host.reduce IntOp.andi x v reducesTo_S1x3x1_S_d0_1_2 h_S_) main_v16 main_c_5
  let main_v18 : IVec S_ 1 := andi main_v13 main_v17
  main_v18

def fn {F : FTy → Type} [FloatOps F] (main_arg0 : FVec F S16384x3 .f32) (main_arg1 : FVec F S16384x3 .f32) (main_arg2 : FVec F S1x3x3 .f32) (main_arg3 : FVec F S1x3x1 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  let main_v9 : FVec F S1x3x3 .f32 := Host.absf main_arg2
  let main_cst_2 : FVec F S_ .f32 := constant S_ .f32 0x7F800000#32
  let main_v10 : FVec F S1x3x3 .f32 := broadcastInDim S1x3x3 ![] bcast_S_S1x3x3 main_cst_2
  let main_v11 : IVec S1x3x3 1 := cmpf .olt main_v9 main_v10
  let main_c_3 : IVec S_ 1 := constantI S_ 1 1#1
  let main_v12 : IVec S_ 1 := (fun x v => Host.reduce IntOp.andi x v reducesTo_S1x3x3_S_d0_1_2 h_S_) main_v11 main_c_3
  let main_v13 : IVec S_ 1 := andi main_v8 main_v12
  let main_v14 : FVec F S1x3x1 .f32 := Host.absf main_arg3
  let main_cst_4 : FVec F S_ .f32 := constant S_ .f32 0x7F800000#32
  let main_v15 : FVec F S1x3x1 .f32 := broadcastInDim S1x3x1 ![] bcast_S_S1x3x1 main_cst_4
  let main_v16 : IVec S1x3x1 1 := cmpf .olt main_v14 main_v15
  fn_part1 (F := F) main_v13 main_v16
-- ==== Kernel.lean ====
abbrev S16384x3 : Shape := ⟨2, ![16384, 3]⟩
abbrev S1x3x3 : Shape := ⟨3, ![1, 3, 3]⟩
abbrev S1x3x1 : Shape := ⟨3, ![1, 3, 1]⟩
abbrev S3x3 : Shape := ⟨2, ![3, 3]⟩
abbrev S3x1 : Shape := ⟨2, ![3, 1]⟩
abbrev S1x3 : Shape := ⟨2, ![1, 3]⟩
abbrev S16384 : Shape := ⟨1, ![16384]⟩
abbrev S32x1x16384 : Shape := ⟨3, ![32, 1, 16384]⟩
abbrev S512x3 : Shape := ⟨2, ![512, 3]⟩
abbrev S512 : Shape := ⟨1, ![512]⟩
abbrev S1x1x16384 : Shape := ⟨3, ![1, 1, 16384]⟩
abbrev S512x1 : Shape := ⟨2, ![512, 1]⟩
abbrev S1024x3 : Shape := ⟨2, ![1024, 3]⟩
abbrev S1024 : Shape := ⟨1, ![1024]⟩
abbrev S512x1024 : Shape := ⟨2, ![512, 1024]⟩
abbrev S1x1024 : Shape := ⟨2, ![1, 1024]⟩
abbrev S1x1x1024 : Shape := ⟨3, ![1, 1, 1024]⟩
abbrev S32x16384 : Shape := ⟨2, ![32, 16384]⟩
abbrev S_ : Shape := ⟨0, ![]⟩

abbrev nBuf : Space → Nat
  | .hbm => 24
  | .vmem => 7
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S1x3x3, .f32⟩
  | .hbm, ⟨3, _⟩ => ⟨S1x3x1, .f32⟩
  | .hbm, ⟨4, _⟩ => ⟨S3x3, .f32⟩
  | .hbm, ⟨5, _⟩ => ⟨S16384x3, .f32⟩
  | .hbm, ⟨6, _⟩ => ⟨S3x1, .f32⟩
  | .hbm, ⟨7, _⟩ => ⟨S1x3, .f32⟩
  | .hbm, ⟨8, _⟩ => ⟨S16384x3, .f32⟩
  | .hbm, ⟨9, _⟩ => ⟨S16384x3, .f32⟩
  | .hbm, ⟨10, _⟩ => ⟨S16384, .f32⟩
  | .hbm, ⟨11, _⟩ => ⟨S32x1x16384, .f32⟩
  | .hbm, ⟨12, _⟩ => ⟨S32x16384, .f32⟩
  | .hbm, ⟨13, _⟩ => ⟨S_, .f32⟩
  | .hbm, ⟨14, _⟩ => ⟨S16384, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S512x3, .f32⟩
  | .local _ .vmem, ⟨1, _⟩ => ⟨S512x3, .f32⟩
  | .local _ .vmem, ⟨2, _⟩ => ⟨S16384x3, .f32⟩
  | .local _ .vmem, ⟨3, _⟩ => ⟨S512, .f32⟩
  | .local _ .vmem, ⟨4, _⟩ => ⟨S512, .f32⟩
  | .local _ .vmem, ⟨5, _⟩ => ⟨S1x1x16384, .f32⟩
  | .local _ .vmem, ⟨6, _⟩ => ⟨S1x1x16384, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v6 : BitVec 32 := Scalar.addi c0_i32 c16_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c1024_i32 : BitVec 32 := 1024#32
  let v10 : BitVec 32 := Scalar.muli arg5 c1024_i32
  v10
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c1024_i32 : BitVec 32 := 1024#32
  let v10 : BitVec 32 := Scalar.muli arg5 c1024_i32
  let v11 : BitVec 32 := v10
  let v12 : Index := Scalar.indexCast v11
  let c0_4 : Index := 0#32
  ![v12.toNat, 0]
def k0_off2 (k0_t1 : Fin k0_t1_loop.trips) : Fin 3 → Nat :=
  let c0_11 : Index := 0#32
  let c0_12 : Index := 0#32
  let c0_i32 : BitVec 32 := 0#32
  let c1_i32 : BitVec 32 := 1#32
  let arg5 : BitVec 32 := Scf.iv c0_i32 c1_i32 k0_t1
  let c1024_i32 : BitVec 32 := 1024#32
  let v10 : BitVec 32 := Scalar.muli arg5 c1024_i32
  let v11 : BitVec 32 := v10
  let v29 : Index := Scalar.indexCast v11
  ![0, 0, v29.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x3x3_S3x3 : S1x3x3.ShapeCasts S3x3
  shapeCasts_S1x3x1_S3x1 : S1x3x1.ShapeCasts S3x1
  transposes_S3x1_S1x3_1_0 : S3x1.Transposes [1, 0] S1x3
  bcast_S1x3_S16384x3_0_1 : S1x3.BroadcastsInDim S16384x3 (![0, 1] : Fin 2 → Fin S16384x3.rank)
  inb_S512x3_S512x3_0_0 : ∀ a, (![0, 0] : Fin 2 → Nat) a + S512x3.size a ≤ S512x3.size a
  h_S512x3 : 0 < S512x3.numel
  shapeCasts_S512x3_S512x3 : S512x3.ShapeCasts S512x3
  reduces_S512x3_S512 : S512x3.Reduces [1] S512
  shapeCasts_S512_S512x1 : S512.ShapeCasts S512x1
  h_S1024x3 : 0 < S1024x3.numel
  reduces_S1024x3_S1024 : S1024x3.Reduces [1] S1024
  shapeCasts_S1024_S1x1024 : S1024.ShapeCasts S1x1024
  broadcasts_S512x1_S512x1024 : S512x1.Broadcasts S512x1024
  broadcasts_S1x1024_S512x1024 : S1x1024.Broadcasts S512x1024
  reduces_S512x1024_S512 : S512x1024.Reduces [1] S512
  reduces_S512x1024_S1024 : S512x1024.Reduces [0] S1024
  h_S1x1x1024 : 0 < S1x1x1024.numel
  shapeCasts_S1x1x1024_S1024 : S1x1x1024.ShapeCasts S1024
  shapeCasts_S1024_S1x1x1024 : S1024.ShapeCasts S1x1x1024
  shapeCasts_S512x1_S512 : S512x1.ShapeCasts S512
  inb_S512_S512_0 : ∀ a, (![0] : Fin 1 → Nat) a + S512.size a ≤ S512.size a
  h_S512 : 0 < S512.numel
  shapeCasts_S32x1x16384_S32x16384 : S32x1x16384.ShapeCasts S32x16384
  reducesTo_S32x16384_S16384_d0 : S32x16384.ReducesTo [0] S16384
  h_S_ : 0 < S_.numel
  reducesTo_S16384_S_d0 : S16384.ReducesTo [0] S_
  dot_S16384x3_S3x3_S16384x3_1_0_0_1_n_n_wf : DotDims.WF S16384x3 S3x3 S16384x3 [1] [0] [0] [1] [] []
  dot_S512x3_S1024x3_S512x1024_1_1_0_0_n_n_wf : DotDims.WF S512x3 S1024x3 S512x1024 [1] [1] [0] [0] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x3.size a ≤ S16384x3.size a
  k0_off2_inb : ∀ k0_t1 : Fin k0_t1_loop.trips, ∀ a, (k0_off2 k0_t1) a + S1x1x1024.size a ≤ S1x1x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S16384x3.size a
  hwx0_0 : ∀ i : grid0.Coords, EltTy.bits .f32 = 32 ∨ (Rect.block (s := S16384x3) S512x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x3.size a ≤ S16384x3.size a
  hwx0_1 : ∀ i : grid0.Coords, EltTy.bits .f32 = 32 ∨ (Rect.block (s := S16384x3) S16384x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S16384.size a
  hwx0_2 : ∀ i : grid0.Coords, EltTy.bits .f32 = 32 ∨ (Rect.block (s := S16384) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x16384.size a ≤ S32x1x16384.size a
  hwx0_3 : ∀ i : grid0.Coords, EltTy.bits .f32 = 32 ∨ (Rect.block (s := S32x1x16384) S1x1x16384.size (cc0_transform_3 i) (hinb0_3 i)).WholeWords (EltTy.packing .f32)

variable [Facts₀]

def dot_S16384x3_S3x3_S16384x3_1_0_0_1_n_n : DotDims S16384x3 S3x3 S16384x3 where
  lhsContracting := [1]
  rhsContracting := [0]
  lhsNonContracting := [0]
  rhsNonContracting := [1]
  lhsBatch := []
  rhsBatch := []
  wf := dot_S16384x3_S3x3_S16384x3_1_0_0_1_n_n_wf
def dot_S512x3_S1024x3_S512x1024_1_1_0_0_n_n : DotDims S512x3 S1024x3 S512x1024 where
  lhsContracting := [1]
  rhsContracting := [1]
  lhsNonContracting := [0]
  rhsNonContracting := [0]
  lhsBatch := []
  rhsBatch := []
  wf := dot_S512x3_S1024x3_S512x1024_1_1_0_0_n_n_wf

abbrev win0_0 : Pipeline.Window sig grid0 :=
  Pipeline.Window.ofSpec (Memref.whole main_v5) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16384x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S1x1x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x3 : Shape := ⟨2, ![16384, 3]⟩
abbrev S1x3x3 : Shape := ⟨3, ![1, 3, 3]⟩
abbrev S1x3x1 : Shape := ⟨3, ![1, 3, 1]⟩
abbrev S3x3 : Shape := ⟨2, ![3, 3]⟩
abbrev S3x1 : Shape := ⟨2, ![3, 1]⟩
abbrev S1x3 : Shape := ⟨2, ![1, 3]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩

abbrev nBuf : Space → Nat
  | .hbm => 42
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S1x3x3, .f32⟩
  | .hbm, ⟨3, _⟩ => ⟨S1x3x1, .f32⟩
  | .hbm, ⟨4, _⟩ => ⟨S3x3, .f32⟩
  | .hbm, ⟨5, _⟩ => ⟨S16384x3, .f32⟩
  | .hbm, ⟨6, _⟩ => ⟨S3x1, .f32⟩
  | .hbm, ⟨7, _⟩ => ⟨S1x3, .f32⟩
  | .hbm, ⟨8, _⟩ => ⟨S16384x3, .f32⟩
  | .hbm, ⟨9, _⟩ => ⟨S16384x3, .f32⟩
  | .hbm, ⟨10, _⟩ => ⟨S16384x3, .f32⟩
  | .hbm, ⟨11, _⟩ => ⟨S_, .f32⟩
  | .hbm, ⟨12, _⟩ => ⟨S16384, .f32⟩
  | .hbm, ⟨13, _⟩ => ⟨S16384x3, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S1x16384, .f32⟩
  | .hbm, ⟨18, _⟩ => ⟨S16384x16384, .f32⟩
  | .hbm, ⟨19, _⟩ => ⟨S16384x16384, .f32⟩
  | .hbm, ⟨20, _⟩ => ⟨S16384x16384, .f32⟩
  | .hbm, ⟨21, _⟩ => ⟨S16384x16384, .f32⟩
  | .hbm, ⟨22, _⟩ => ⟨S_, .f32⟩
  | .hbm, ⟨23, _⟩ => ⟨S16384x16384, .f32⟩
  | .hbm, ⟨24, _⟩ => ⟨S16384x16384, .f32⟩
  | .hbm, ⟨25, _⟩ => ⟨S16384x16384, .f32⟩
  | .hbm, ⟨26, _⟩ => ⟨S_, .f32⟩
  | .hbm, ⟨27, _⟩ => ⟨S16384x16384, .f32⟩
  | .hbm, ⟨28, _⟩ => ⟨S16384x16384, .f32⟩
  | .hbm, ⟨29, _⟩ => ⟨S_, .f32⟩
  | .hbm, ⟨30, _⟩ => ⟨S16384, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S16384, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  shapeCasts_S1x3x3_S3x3 : S1x3x3.ShapeCasts S3x3
  shapeCasts_S1x3x1_S3x1 : S1x3x1.ShapeCasts S3x1
  transposes_S3x1_S1x3_1_0 : S3x1.Transposes [1, 0] S1x3
  bcast_S1x3_S16384x3_0_1 : S1x3.BroadcastsInDim S16384x3 (![0, 1] : Fin 2 → Fin S16384x3.rank)
  reducesTo_S16384x3_S16384_d1 : S16384x3.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  reducesTo_S16384x16384_S16384_d0 : S16384x16384.ReducesTo [0] S16384
  dot_S16384x3_S3x3_S16384x3_1_0_0_1_n_n_wf : DotDims.WF S16384x3 S3x3 S16384x3 [1] [0] [0] [1] [] []
  dot_S16384x3_S16384x3_S16384x16384_1_1_0_0_n_n_wf : DotDims.WF S16384x3 S16384x3 S16384x16384 [1] [1] [0] [0] [] []

variable [Facts₀]

def dot_S16384x3_S3x3_S16384x3_1_0_0_1_n_n : DotDims S16384x3 S3x3 S16384x3 where
  lhsContracting := [1]
  rhsContracting := [0]
  lhsNonContracting := [0]
  rhsNonContracting := [1]
  lhsBatch := []
  rhsBatch := []
  wf := dot_S16384x3_S3x3_S16384x3_1_0_0_1_n_n_wf
def dot_S16384x3_S16384x3_S16384x16384_1_1_0_0_n_n : DotDims S16384x3 S16384x3 S16384x16384 where
  lhsContracting := [1]
  rhsContracting := [1]
  lhsNonContracting := [0]
  rhsNonContracting := [0]
  lhsBatch := []
  rhsBatch := []
  wf := dot_S16384x3_S16384x3_S16384x16384_1_1_0_0_n_n_wf

class Facts : Prop extends Facts₀ where

variable [Facts]
-- ==== Proof.Spec.lean ====
/-
  The chamfer loss between two clouds of points in 3-space, on the extended reals.

  For clouds `x` (n points) and `y` (m points), one point per row, the squared distance of point `i` of `x` and
  point `j` of `y` is taken by the expanded quadratic form |x_i|² + |y_j|² − 2·⟨x_i, y_j⟩ and clamped at zero from
  below. The loss is the mean over `i` of the least such distance over `j` plus the mean over `j` of the least over
  `i`. A least value over a finite range is the fold of `min` from +∞.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Chamfer

/-- `n` points of 3-space, one row each. -/
abbrev Pts (n : ℕ) := (⟨2, ![n, 3]⟩ : Shape).Idx → EReal

variable {n m : ℕ}

/-- The squared length of point `i`: the sum of its three squared coordinates. -/
def sq (p : Pts n) (i : Fin n) : EReal := ∑ k : Fin 3, p (ix2 i k) * p (ix2 i k)

/-- The inner product of point `i` of `x` with point `j` of `y`. -/
def inner (x : Pts n) (y : Pts m) (i : Fin n) (j : Fin m) : EReal := ∑ k : Fin 3, x (ix2 i k) * y (ix2 j k)

/-- The squared distance of point `i` of `x` and point `j` of `y` by the quadratic form, clamped at zero
    (the two words are the floats 2 and 0). -/
def dist2 (x : Pts n) (y : Pts m) (i : Fin n) (j : Fin m) : EReal :=
  max (sq x i + sq y j - Ideal.ofBits .f32 0x40000000#32 * inner x y i j) (Ideal.ofBits .f32 0x00000000#32)

/-- The least squared distance from point `i` of `x` to the points of `y`. -/
def rowMin (x : Pts n) (y : Pts m) (i : Fin n) : EReal :=
  (Finset.univ : Finset (Fin m)).fold min ⊤ (fun j => dist2 x y i j)

/-- The least squared distance from point `j` of `y` to the points of `x`. -/
def colMin (x : Pts n) (y : Pts m) (j : Fin m) : EReal :=
  (Finset.univ : Finset (Fin n)).fold min ⊤ (fun i => dist2 x y i j)

/-- The row minima as an array of `n` entries. -/
def rowMinArr (x : Pts n) (y : Pts m) : (⟨1, ![n]⟩ : Shape).Idx → EReal :=
  fun i => rowMin x y ⟨(i 0).val, (i 0).isLt⟩

/-- The column minima as an array of `m` entries. -/
def colMinArr (x : Pts n) (y : Pts m) : (⟨1, ![m]⟩ : Shape).Idx → EReal :=
  fun j => colMin x y ⟨(j 0).val, (j 0).isLt⟩

theorem rowMinArr_ix1 (x : Pts n) (y : Pts m) (i : Fin n) : rowMinArr x y (ix1 i) = rowMin x y i := rfl

theorem colMinArr_ix1 (x : Pts n) (y : Pts m) (j : Fin m) : colMinArr x y (ix1 j) = colMin x y j := rfl

/-- The mean of 16384 row minima plus the mean of 16384 column minima: each a sum from the float 0 divided by the
    float 16384. -/
def meanSum (hr : (⟨1, ![16384]⟩ : Shape).ReducesTo [0] ⟨0, ![]⟩) (hu : 0 < (⟨0, ![]⟩ : Shape).numel)
    (R C : FVec Ideal ⟨1, ![16384]⟩ .f32) : FVec Ideal ⟨0, ![]⟩ .f32 :=
  addf
    (Host.divf (Host.reduceAdd R (constant (F := Ideal) ⟨0, ![]⟩ .f32 0x00000000#32) hr hu)
      (constant (F := Ideal) ⟨0, ![]⟩ .f32 0x46800000#32))
    (Host.divf (Host.reduceAdd C (constant (F := Ideal) ⟨0, ![]⟩ .f32 0x00000000#32) hr hu)
      (constant (F := Ideal) ⟨0, ![]⟩ .f32 0x46800000#32))

/-- The chamfer loss of two clouds of 16384 points. -/
def loss (hr : (⟨1, ![16384]⟩ : Shape).ReducesTo [0] ⟨0, ![]⟩) (hu : 0 < (⟨0, ![]⟩ : Shape).numel)
    (x y : Pts 16384) : FVec Ideal ⟨0, ![]⟩ .f32 :=
  meanSum hr hu (rowMinArr x y) (colMinArr x y)

end Chamfer

end
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.RefSpec.lean ====
/-
  The reference program computes the chamfer loss of the specification.

  The reference forms the 16384 x 16384 matrix of clamped squared distances by the expanded quadratic form
  |x_i|^2 + |y_j|^2 - 2 <x_i, y_j>, takes the least entry of every row and of every column (a fold of the minimum
  from +infinity), and adds the mean of the row minima to the mean of the column minima. Entry by entry this is the
  specification's squared distance; the row and column minima are then the specification's, and the two means are
  formed by the same operations.
-/
import proofs.«179176_j9955734192761_2_alg».proof.Proof.Gen.ReferenceIdeal.Read
import proofs.«179176_j9955734192761_2_alg».proof.Proof.Spec
import proofs.«179176_j9955734192761_2_alg».proof.Proof.LibRows
import proofs.«179176_j9955734192761_2_alg».proof.Proof.LibSums
import Idealize.ShloMosaic.PureOps.Reduce

open scoped BigOperators

noncomputable section

namespace Cert.ReferenceIdeal.RefSpec
open Cert.ReferenceIdeal Cert.ReferenceIdeal.Gen Cert.ReferenceIdeal.Read Idealize.ShloMosaic Idealize.ShloMosaic.ValueIdx

/-! ### Minima over one axis of a matrix, read at coordinates -/

/-- Inserting the row s in front of the column index t gives the entry (s, t). -/
theorem lift_first_ix2 {a b : ℕ} (h : (⟨2, ![a, b]⟩ : Shape).Reduces [0] ⟨1, ![b]⟩) (t : Fin b) (s : Fin a) :
    h.lift (ix1 t) s = ix2 s t := by
  funext d
  refine Fin.ext ?_
  match d with
  | ⟨0, _⟩ => rfl
  | ⟨1, _⟩ => rfl

section
variable {φ : FTy}

/-- The least entry of row t: the fold of the minimum over the row's entries, from the starting value's one element. -/
theorem hostRowMin_apply {a b : ℕ} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (t : Fin a) :
    Host.reduce FloatOps.minimumf x init h' hu (ix1 t)
      = (Finset.univ : Finset (Fin b)).fold min (init ix0) (fun s => x (ix2 t s)) := by
  rw [Host.reduce_eq_fold_single FloatOps.minimumf x init h' h hu, eq_ix0 (Shape.Idx.first hu)]
  have e : (x ∘ h.lift (ix1 t)) = fun s : Fin b => x (ix2 t s) := funext fun s => congrArg x (lift_last_ix2 h t s)
  rw [e]
  rfl

/-- The least entry of column t: the fold of the minimum over the column's entries, from the starting value's one
    element. -/
theorem hostColMin_apply {a b : ℕ} (x : FVec Ideal ⟨2, ![a, b]⟩ φ) (init : (⟨0, ![]⟩ : Shape).Idx → Ideal φ)
    (h' : (⟨2, ![a, b]⟩ : Shape).ReducesTo [0] ⟨1, ![b]⟩) (h : (⟨2, ![a, b]⟩ : Shape).Reduces [0] ⟨1, ![b]⟩)
    (hu : 0 < (⟨0, ![]⟩ : Shape).numel) (t : Fin b) :
    Host.reduce FloatOps.minimumf x init h' hu (ix1 t)
      = (Finset.univ : Finset (Fin a)).fold min (init ix0) (fun s => x (ix2 s t)) := by
  rw [Host.reduce_eq_fold_single FloatOps.minimumf x init h' h hu, eq_ix0 (Shape.Idx.first hu)]
  have e : (x ∘ h.lift (ix1 t)) = fun s : Fin a => x (ix2 s t) := funext fun s => congrArg x (lift_first_ix2 h t s)
  rw [e]
  rfl

end

/-! ### One entry of the distance matrix -/

section
variable (x0 x1 : (⟨S16384x3, .f32⟩ : BufTy).Contents (Elt Ideal)) (x2 : (⟨S1x3x3, .f32⟩ : BufTy).Contents (Elt Ideal))
  (x3 : (⟨S1x3x1, .f32⟩ : BufTy).Contents (Elt Ideal))

/-- The squared length of point i of the moved cloud: the reference's sum starts from the float 0, which adds
    nothing. -/
theorem sqX_apply (i : Fin 16384) :
    val_main_v7 (F := Ideal) x1 x2 x3 (ix1 i) = Chamfer.sq (val_main_v5 (F := Ideal) x1 x2 x3) i := by
  rw [val_main_v7_apply, val_main_cst_apply, Ideal.ofBits_def, Ideal.ofBits_zero_f32, zero_add]
  unfold Chamfer.sq
  refine Finset.sum_congr rfl fun k _ => ?_
  have e : idx_main_v7 (ix1 i) k = ix2 i k :=
    funext fun a => Fin.ext (by match a with | ⟨0, _⟩ => rfl | ⟨1, _⟩ => rfl)
  rw [val_main_v6_apply, Ideal.mulf_def, e]

/-- The squared length of point j of the fixed cloud. -/
theorem sqY_apply (j : Fin 16384) :
    val_main_v9 (F := Ideal) x0 (ix1 j) = Chamfer.sq x0 j := by
  rw [val_main_v9_apply, val_main_cst_0_apply, Ideal.ofBits_def, Ideal.ofBits_zero_f32, zero_add]
  unfold Chamfer.sq
  refine Finset.sum_congr rfl fun k _ => ?_
  have e : idx_main_v9 (ix1 j) k = ix2 j k :=
    funext fun a => Fin.ext (by match a with | ⟨0, _⟩ => rfl | ⟨1, _⟩ => rfl)
  rw [val_main_v8_apply, Ideal.mulf_def, e]

/-- The inner product of point i of the moved cloud with point j of the fixed one. -/
theorem inner_apply (i j : Fin 16384) :
    val_main_v15 (F := Ideal) x0 x1 x2 x3 (ix2 i j) = Chamfer.inner (val_main_v5 (F := Ideal) x1 x2 x3) x0 i j := by
  rw [val_main_v15_apply]
  unfold Chamfer.inner
  refine Finset.sum_congr rfl fun k _ => ?_
  have el : lidx_main_v15 (ix2 i j) k = ix2 i k :=
    funext fun a => Fin.ext (by match a with | ⟨0, _⟩ => rfl | ⟨1, _⟩ => rfl)
  have er : ridx_main_v15 (ix2 i j) k = ix2 j k :=
    funext fun a => Fin.ext (by match a with | ⟨0, _⟩ => rfl | ⟨1, _⟩ => rfl)
  rw [el, er]

/-- Entry (i, j) of the reference's matrix is the specification's clamped squared distance. -/
theorem d2_apply (i j : Fin 16384) :
    val_main_v20 (F := Ideal) x0 x1 x2 x3 (ix2 i j) = Chamfer.dist2 (val_main_v5 (F := Ideal) x1 x2 x3) x0 i j := by
  have e12 : idx_main_v10 (idx_main_v12 (ix2 i j)) = ix1 i :=
    funext fun a => Fin.ext (by match a with | ⟨0, _⟩ => rfl)
  have e13 : idx_main_v11 (idx_main_v13 (ix2 i j)) = ix1 j :=
    funext fun a => Fin.ext (by match a with | ⟨0, _⟩ => rfl)
  rw [val_main_v20_apply, val_main_v18_apply, val_main_v14_apply, val_main_v12_apply, val_main_v10_apply, e12,
    sqX_apply, val_main_v13_apply, val_main_v11_apply, e13, sqY_apply, val_main_v17_apply, val_main_v16_apply,
    val_main_cst_1_apply, inner_apply, val_main_v19_apply, val_main_cst_2_apply]
  rfl

end

/-! ### The row and column minima, and the loss -/

section
variable (x0 x1 : (⟨S16384x3, .f32⟩ : BufTy).Contents (Elt Ideal)) (x2 : (⟨S1x3x3, .f32⟩ : BufTy).Contents (Elt Ideal))
  (x3 : (⟨S1x3x1, .f32⟩ : BufTy).Contents (Elt Ideal))

/-- The reference's minima over the second axis are the specification's row minima: the starting word is +infinity,
    and the entries folded are the specification's distances. -/
theorem rowmin :
    val_main_v21 (F := Ideal) x0 x1 x2 x3 = Chamfer.rowMinArr (val_main_v5 (F := Ideal) x1 x2 x3) x0 := by
  funext t
  obtain ⟨i, rfl⟩ : ∃ i : Fin 16384, t = ix1 i := ⟨t 0, eq_ix1 t⟩
  rw [Chamfer.rowMinArr_ix1]
  unfold val_main_v21 Chamfer.rowMin
  refine (hostRowMin_apply (val_main_v20 (F := Ideal) x0 x1 x2 x3) (val_main_cst_3 (F := Ideal))
    reducesTo_S16384x16384_S16384_d1 (by decide) h_S_ i).trans ?_
  rw [show val_main_cst_3 (F := Ideal) ix0 = (⊤ : EReal) from Cert.LibSums.ofBits_inf_f32]
  exact Finset.fold_congr (fun j _ => d2_apply x0 x1 x2 x3 i j)

/-- The reference's minima over the first axis are the specification's column minima. -/
theorem colmin :
    val_main_v24 (F := Ideal) x0 x1 x2 x3 = Chamfer.colMinArr (val_main_v5 (F := Ideal) x1 x2 x3) x0 := by
  funext t
  obtain ⟨j, rfl⟩ : ∃ j : Fin 16384, t = ix1 j := ⟨t 0, eq_ix1 t⟩
  rw [Chamfer.colMinArr_ix1]
  unfold val_main_v24 Chamfer.colMin
  refine (hostColMin_apply (val_main_v20 (F := Ideal) x0 x1 x2 x3) (val_main_cst_6 (F := Ideal))
    reducesTo_S16384x16384_S16384_d0 (by decide) h_S_ j).trans ?_
  rw [show val_main_cst_6 (F := Ideal) ix0 = (⊤ : EReal) from Cert.LibSums.ofBits_inf_f32]
  exact Finset.fold_congr (fun i _ => d2_apply x0 x1 x2 x3 i j)

end

/-- The reference's result is the chamfer loss of the moved cloud and the fixed cloud: the two means are formed from
    the row and column minima by the same sum from the float 0 and the same division by the float 16384. -/
theorem ref_eq (x0 x1 : (⟨S16384x3, .f32⟩ : BufTy).Contents (Elt Ideal)) (x2 : (⟨S1x3x3, .f32⟩ : BufTy).Contents (Elt Ideal)) (x3 : (⟨S1x3x1, .f32⟩ : BufTy).Contents (Elt Ideal)) :
    val_main_v27 (F := Ideal) x0 x1 x2 x3
      = Chamfer.loss reducesTo_S16384_S_d0 h_S_ (val_main_v5 (F := Ideal) x1 x2 x3) x0 := by
  unfold val_main_v27 val_main_v23 val_main_v26 val_main_v22 val_main_v25 Chamfer.loss Chamfer.meanSum
  rw [rowmin, colmin]
  rfl

end Cert.ReferenceIdeal.RefSpec

end
-- ==== Proof.BlocksIdx.lean ====
/-
  Where the windows' blocks sit in their arrays.

  The grid has 32 points. At point t the moved cloud's window holds rows 512·t … 512·t + 511 of the moved cloud, the
  fixed cloud's window holds the whole fixed cloud, the row-minima window is entries 512·t … of the 16384 row minima,
  and the column-minima window is row t of the stack of 32 rows of per-tile column minima. The 32 blocks of each
  output tile its array.
-/
import proofs.«179176_j9955734192761_2_alg».proof.Proof.Gen.KernelIdeal.Frame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx
open Idealize.SL Idealize.SL.Sem
open Cert.KernelIdeal Cert.KernelIdeal.Gen
open Idealize.ShloMosaic.Pipeline (Dat Cfg Window)

variable (m : (ℓ : Loc nD τ sig) → Buf (Elt Ideal) ℓ)

/-- The moved cloud as the region finds it. -/
abbrev X (c : Dev nD) : S16384x3.Idx → EReal := V m c main_v5
/-- The fixed cloud as the region finds it. -/
abbrev Y (c : Dev nD) : S16384x3.Idx → EReal := V m c main_arg0

/-- The printed index maps over the grid: block t of the moved cloud, block 0 of the fixed cloud, block t of the
    row minima, block (t, 0, 0) of the stack. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = t.val
    ∧ win0_3.index t (0 : Fin 3) = t.val ∧ win0_3.index t (1 : Fin 3) = 0 ∧ win0_3.index t (2 : Fin 3) = 0 :=
  (by decide +kernel : ∀ t : Fin grid0.N, _)

theorem t_lt (t : Fin cfg0.N) : t.val < 32 := by
  have hN : cfg0.N = 32 := N_0
  have := t.isLt
  omega

/-- Row r of the moved cloud's block at point t is row 512·t + r of the moved cloud. -/
theorem tile_apply (c : Dev nD) (t : Fin cfg0.N) (r : Fin 512) (k : Fin 3) (h : 512 * t.val + r.val < 16384) :
    (iblk m c 0 t : Vec Ideal S512x3 .f32) (ix2 r k) = X m c (ix2 (⟨512 * t.val + r.val, h⟩ : Fin 16384) k) := by
  obtain ⟨e0, e1, -⟩ := idx_facts t
  unfold iblk
  rw [View.read_apply]
  show V m c main_v5 _ = V m c main_v5 _
  congr 1
  funext a
  apply Fin.ext
  match a with
  | ⟨0, _⟩ => show win0_0.index t 0 * 512 + 1 * r.val = 512 * t.val + r.val; rw [e0]; omega
  | ⟨1, _⟩ => show win0_0.index t 1 * 3 + 1 * k.val = k.val; rw [e1]; omega

/-- The fixed cloud's block at any point is the whole fixed cloud. -/
theorem fixed_apply (c : Dev nD) (t : Fin cfg0.N) (j : Fin 16384) (k : Fin 3) :
    (iblk m c 1 t : Vec Ideal S16384x3 .f32) (ix2 j k) = Y m c (ix2 j k) := by
  obtain ⟨-, -, e0, e1, -⟩ := idx_facts t
  unfold iblk
  rw [View.read_apply]
  show V m c main_arg0 _ = V m c main_arg0 _
  congr 1
  funext a
  apply Fin.ext
  match a with
  | ⟨0, _⟩ => show win0_1.index t 0 * 16384 + 1 * j.val = j.val; rw [e0]; omega
  | ⟨1, _⟩ => show win0_1.index t 1 * 3 + 1 * k.val = k.val; rw [e1]; omega

/-- An entry of the row minima is in point t's block iff it lies in the block's range. -/
theorem mem_blk2 (t : Fin cfg0.N) (i : S16384.Idx) :
    i ∈ ((cfg0.win 2).blk t).view.set ↔ ∀ a : Fin 1, win0_2.index t a * S512.size a ≤ (i a).val ∧ (i a).val < win0_2.index t a * S512.size a + S512.size a := by
  show i ∈ ((View.whole main_v6_0).slice (win0_2.rect t)).set ↔ _
  rw [View.set_slice_whole, Rect.mem_set_unit]
  exact Iff.rfl

/-- Every entry of the row minima is in the block of the point t = entry / 512. -/
theorem cover2 (i : S16384.Idx) : ∃ t : Fin cfg0.N, (cfg0.win 2).flush t = true ∧ i ∈ ((cfg0.win 2).blk t).view.set := by
  have hN : cfg0.N = 32 := N_0
  have hi : (i 0).val < 16384 := (i 0).isLt
  let t : Fin cfg0.N := ⟨(i 0).val / 512, by rw [hN]; omega⟩
  obtain ⟨-, -, -, -, e2, -⟩ := idx_facts t
  refine ⟨t, flush0_2 t, ?_⟩
  rw [mem_blk2]
  intro a
  match a with
  | ⟨0, _⟩ =>
    show win0_2.index t 0 * 512 ≤ (i 0).val ∧ (i 0).val < win0_2.index t 0 * 512 + 512
    rw [e2]
    show (i 0).val / 512 * 512 ≤ (i 0).val ∧ (i 0).val < (i 0).val / 512 * 512 + 512
    omega

/-- An entry of the stack is in point t's block iff it lies in the block's range on every axis. -/
theorem mem_blk3 (t : Fin cfg0.N) (i : S32x1x16384.Idx) :
    i ∈ ((cfg0.win 3).blk t).view.set ↔ ∀ a : Fin 3, win0_3.index t a * S1x1x16384.size a ≤ (i a).val ∧ (i a).val < win0_3.index t a * S1x1x16384.size a + S1x1x16384.size a := by
  show i ∈ ((View.whole main_v6_1).slice (win0_3.rect t)).set ↔ _
  rw [View.set_slice_whole, Rect.mem_set_unit]
  exact Iff.rfl

/-- Every entry of the stack is in the block of the point t = its row. -/
theorem cover3 (i : S32x1x16384.Idx) : ∃ t : Fin cfg0.N, (cfg0.win 3).flush t = true ∧ i ∈ ((cfg0.win 3).blk t).view.set := by
  have hN : cfg0.N = 32 := N_0
  have h0 : (i 0).val < 32 := (i 0).isLt
  have h1 : (i 1).val < 1 := (i 1).isLt
  have h2 : (i 2).val < 16384 := (i 2).isLt
  let t : Fin cfg0.N := ⟨(i 0).val, by rw [hN]; exact h0⟩
  obtain ⟨-, -, -, -, -, e0, e1, e2⟩ := idx_facts t
  refine ⟨t, flush0_3 t, ?_⟩
  rw [mem_blk3]
  intro a
  match a with
  | ⟨0, _⟩ =>
    show win0_3.index t 0 * 1 ≤ (i 0).val ∧ (i 0).val < win0_3.index t 0 * 1 + 1
    rw [e0]; show (i 0).val * 1 ≤ (i 0).val ∧ (i 0).val < (i 0).val * 1 + 1; omega
  | ⟨1, _⟩ =>
    show win0_3.index t 1 * 1 ≤ (i 1).val ∧ (i 1).val < win0_3.index t 1 * 1 + 1
    rw [e1]; omega
  | ⟨2, _⟩ =>
    show win0_3.index t 2 * 16384 ≤ (i 2).val ∧ (i 2).val < win0_3.index t 2 * 16384 + 16384
    rw [e2]; omega

end Cert.KernelIdeal.Blocks

end
-- ==== Proof.LoopRun.lean ====
/-
  What the kernel body's loop leaves, read off its run.

  The body holds a tile of 512 moved points and walks the 16384 fixed points in 16 chunks of 1024. Trip `k` loads
  chunk `k`, stores the chunk's 1024 column minima at offset 1024·k of the column row, and replaces the carried
  vector of 512 row minima by its entrywise minimum with the chunk's row minima. After the loop the carried vector
  is stored as the tile's row minima. Stated here: what one trip yields and stores, the number of trips, and the two
  outputs in terms of the state after the last trip.
-/
import proofs.«179176_j9955734192761_2_alg».proof.Proof.Gen.KernelIdeal.Frame
import Idealize.ShloMosaic.Lib.WholeRead
import Idealize.ShloMosaic.Lib.ValueIdx

set_option maxRecDepth 16384

noncomputable section

namespace Cert.KernelIdeal.LoopRun

open Idealize.ShloMosaic Idealize.ShloMosaic.TcCoe Idealize.ShloMosaic.ValueIdx
open Idealize.SL Idealize.SL.Sem
open Cert.KernelIdeal Cert.KernelIdeal.Gen

/-- Chunk `k` of the staged fixed cloud: the 1024 rows from row 1024·k on, as the trip's load reads them. -/
def chunk (arg2 : Memref sig .tc .vmem S16384x3 .f32) (X : BufTy.Contents (Elt Ideal) arg2.view.ty)
    (k : Fin k0_t1_loop.trips) : Vec Ideal S1024x3 .f32 :=
  View.readAt (Elt Ideal) arg2.view (Rect.unit (s := S16384x3) (k0_off1 k) S1024x3.size (k0_off1_inb k)).toLoadRect X

/-- One trip replaces the carried row minima by their minimum with the chunk's row minima. -/
theorem tripR_eq (𝒱 : Variants) (bd : Option 𝒱.V) (c : Dev nD) (i : grid0.Coords) (arg1 : Memref sig .tc .vmem S512x3 .f32) (harg1 : arg1.IsWhole) (arg2 : Memref sig .tc .vmem S16384x3 .f32) (harg2 : arg2.IsWhole) (arg3 : Memref sig .tc .vmem S512 .f32) (harg3 : arg3.IsWhole) (arg4 : Memref sig .tc .vmem S1x1x16384 .f32) (harg4 : arg4.IsWhole)
    (v0 : Vec Ideal S512x3 .f32) (X : BufTy.Contents (Elt Ideal) arg2.view.ty) (k : Fin k0_t1_loop.trips)
    (acc : FVec Ideal S512x1 .f32) :
    tripR_k0_t1 (F := Ideal) 𝒱 c bd i arg1 harg1 arg2 harg2 arg3 harg3 arg4 harg4 v0 X k acc
      = k0_pay4 (F := Ideal) v0 acc (chunk arg2 X k) := by
  unfold tripR_k0_t1 trip_k0_t1
  rfl

/-- One trip stores one piece: the chunk's column minima at the chunk's offset of the column row. -/
theorem tripL_eq (𝒱 : Variants) (bd : Option 𝒱.V) (c : Dev nD) (i : grid0.Coords) (arg1 : Memref sig .tc .vmem S512x3 .f32) (harg1 : arg1.IsWhole) (arg2 : Memref sig .tc .vmem S16384x3 .f32) (harg2 : arg2.IsWhole) (arg3 : Memref sig .tc .vmem S512 .f32) (harg3 : arg3.IsWhole) (arg4 : Memref sig .tc .vmem S1x1x16384 .f32) (harg4 : arg4.IsWhole)
    (v0 : Vec Ideal S512x3 .f32) (X : BufTy.Contents (Elt Ideal) arg2.view.ty) (k : Fin k0_t1_loop.trips)
    (acc : FVec Ideal S512x1 .f32) :
    tripL_k0_t1 (F := Ideal) 𝒱 c bd i arg1 harg1 arg2 harg2 arg3 harg3 arg4 harg4 v0 X k acc
      = [(⟨Rect.unit (s := S1x1x16384) (k0_off2 k) S1x1x1024.size (k0_off2_inb k), k0_pay3 (F := Ideal) v0 (chunk arg2 X k)⟩ :
          View.Piece (Elt Ideal) S1x1x16384 .f32)] := by
  unfold tripL_k0_t1 trip_k0_t1
  rfl

/-- The loop makes 16 trips. -/
theorem trips_eq : k0_t1_loop.trips = 16 := by decide

/-- A load of the whole tile reads the tile. -/
theorem tile_read (arg1 : Memref sig .tc .vmem S512x3 .f32) (harg1 : arg1.IsWhole) (x0 : Vec Ideal S512x3 .f32) :
    View.readAt (Elt Ideal) arg1.view (Rect.unit (s := S512x3) ![0, 0] S512x3.size inb_S512x3_S512x3_0_0).toLoadRect (harg1.unread x0) = x0 := by
  rw [View.readAt_eq_ld, harg1.read_unread]
  exact View.ld_unit_zero (funext fun a => by match a with | ⟨0, _⟩ => rfl | ⟨1, _⟩ => rfl) _ x0

/-- The state after all trips, started from the body's initial carried value, on a tile `x0` and the staged fixed
    cloud `x1`. -/
def final (c : Dev nD) (i : grid0.Coords) (arg1 : Memref sig .tc .vmem S512x3 .f32) (harg1 : arg1.IsWhole) (arg2 : Memref sig .tc .vmem S16384x3 .f32) (harg2 : arg2.IsWhole) (arg3 : Memref sig .tc .vmem S512 .f32) (harg3 : arg3.IsWhole) (arg4 : Memref sig .tc .vmem S1x1x16384 .f32) (harg4 : arg4.IsWhole) (x0 : Vec Ideal S512x3 .f32) (x1 : Vec Ideal S16384x3 .f32) :
    (FVec Ideal S512x1 .f32) × List (View.Piece (Elt Ideal) S1x1x16384 .f32) :=
  st_k0_t1 (F := Ideal) Variants.none c none i arg1 harg1 arg2 harg2 arg3 harg3 arg4 harg4 x0 (harg2.unread x1)
    (k0_pay1 (F := Ideal)) k0_t1_loop.trips

/-- The row-minima output receives one piece: the carried vector after the last trip, cast to a row. -/
theorem run_rows (c : Dev nD) (i : grid0.Coords) (arg1 : Memref sig .tc .vmem S512x3 .f32) (harg1 : arg1.IsWhole) (arg2 : Memref sig .tc .vmem S16384x3 .f32) (harg2 : arg2.IsWhole) (arg3 : Memref sig .tc .vmem S512 .f32) (harg3 : arg3.IsWhole) (arg4 : Memref sig .tc .vmem S1x1x16384 .f32) (harg4 : arg4.IsWhole) (x0 : Vec Ideal S512x3 .f32) (x1 : Vec Ideal S16384x3 .f32) :
    (kernelRun0_A (F := Ideal) c i arg1 harg1 arg2 harg2 arg3 harg3 arg4 harg4 x0 x1).1
      = [(⟨Rect.unit (s := S512) ![0] S512.size inb_S512_S512_0, k0_pay5 (F := Ideal) (final c i arg1 harg1 arg2 harg2 arg3 harg3 arg4 harg4 x0 x1).1⟩ :
          View.Piece (Elt Ideal) S512 .f32)] := by
  unfold final kernelRun0_A
  dsimp only
  rw [tile_read arg1 harg1 x0]

/-- The column-minima output receives the pieces of the 16 trips. -/
theorem run_cols (c : Dev nD) (i : grid0.Coords) (arg1 : Memref sig .tc .vmem S512x3 .f32) (harg1 : arg1.IsWhole) (arg2 : Memref sig .tc .vmem S16384x3 .f32) (harg2 : arg2.IsWhole) (arg3 : Memref sig .tc .vmem S512 .f32) (harg3 : arg3.IsWhole) (arg4 : Memref sig .tc .vmem S1x1x16384 .f32) (harg4 : arg4.IsWhole) (x0 : Vec Ideal S512x3 .f32) (x1 : Vec Ideal S16384x3 .f32) :
    (kernelRun0_A (F := Ideal) c i arg1 harg1 arg2 harg2 arg3 harg3 arg4 harg4 x0 x1).2.1 = (final c i arg1 harg1 arg2 harg2 arg3 harg3 arg4 harg4 x0 x1).2 := by
  unfold final kernelRun0_A
  dsimp only
  rw [tile_read arg1 harg1 x0]

/-- Row `s` of chunk `k` of the staged cloud is row 1024·k + s of the cloud. -/
theorem chunk_apply (arg2 : Memref sig .tc .vmem S16384x3 .f32) (harg2 : arg2.IsWhole) (x1 : Vec Ideal S16384x3 .f32)
    (k : Fin k0_t1_loop.trips) (s : Fin 1024) (d : Fin 3) (h : 1024 * k.val + s.val < 16384) :
    chunk arg2 (harg2.unread x1) k (ix2 s d) = x1 (ix2 (⟨1024 * k.val + s.val, h⟩ : Fin 16384) d) := by
  unfold chunk
  rw [harg2.readAt_unread]
  refine congrArg x1 (funext fun a => Fin.ext ?_)
  match a with
  | ⟨0, _⟩ =>
    show k0_off1 k 0 + 1 * s.val = 1024 * k.val + s.val
    rw [k0_off1_eq]; show 1024 * k.val + 1 * s.val = _; omega
  | ⟨1, _⟩ =>
    show k0_off1 k 1 + 1 * d.val = d.val
    rw [k0_off1_eq]; show 0 + 1 * d.val = _; omega

end Cert.KernelIdeal.LoopRun

end
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.Payload.lean ====
/-
  The arithmetic of one pass of the chamfer kernel, read entry by entry on the extended reals.

  The kernel holds a tile `x` of 512 points and meets, one after the other, chunks `y` of 1024 points. From the two it
  forms the 512 × 1024 matrix whose entry (r, s) is |x_r|² + |y_s|² − 2·⟨x_r, y_s⟩ clamped at zero from below: the row
  sums of the squared coordinates give the two squared lengths, a product of the tile with the transposed chunk gives
  the inner products. The matrix's column minima are the chunk's least distances to the tile; its row minima are folded
  into a running minimum that starts at +∞. Each statement below says what one of these arrays holds at one entry, in
  the words of the specification: the clamped squared distance, its least value over a row, its least value over a column.
-/
import proofs.«179176_j9955734192761_2_alg».proof.Proof.Gen.KernelIdeal.Skeleton
import proofs.«179176_j9955734192761_2_alg».proof.Proof.Spec
import proofs.«179176_j9955734192761_2_alg».proof.Proof.LibRows
import proofs.«179176_j9955734192761_2_alg».proof.Proof.LibLayout
import proofs.«179176_j9955734192761_2_alg».proof.Proof.LibSums
import Idealize.ShloMosaic.PureOps.Ideal.Laws
import Idealize.ShloMosaic.PureOps.Reduce
import Idealize.ShloMosaic.PureOps.IdealRules
import Idealize.ShloMosaic.Lib.Pipeline.Value
import Idealize.ShloMosaic.Lib.ValueLayout

open scoped BigOperators

noncomputable section

namespace Cert.KernelIdeal.Pay

open Cert.KernelIdeal Cert.KernelIdeal.Gen Idealize.ShloMosaic Idealize.ShloMosaic.ValueIdx

/-! ## Layout steps at explicit coordinates -/

section Layout
variable {α : Type}

/-- A column `[a, 1]` cast to the vector `[a]` reads, at `i`, the column's entry `(i, 0)`: both sit at row-major
    position `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector `[a]` cast to `[1, 1, a]` reads, at `(u, u', i)`, the vector's entry `i`, whatever the unit coordinates. -/
theorem shapeCast_a_11a_apply {a : ℕ} (x : (⟨1, ![a]⟩ : Shape).Idx → α) (h : (⟨1, ![a]⟩ : Shape).ShapeCasts ⟨3, ![1, 1, a]⟩)
    (u u' : Fin 1) (i : Fin a) : shapeCast ⟨3, ![1, 1, a]⟩ x h (ix3 u u' i) = x (ix1 i) :=
  shapeCast_apply x h _ _ (by
    have hu : u.val = 0 := by omega
    have hu' : u'.val = 0 := by omega
    rw [Shape.rowMajor_val_three, Shape.rowMajor_val_one]
    show i.val = (u.val * 1 + u'.val) * a + i.val
    rw [hu, hu']
    simp only [Nat.zero_mul, Nat.zero_add])

end Layout

/-! ## The loop's starting value and the final cast -/

/-- The stored row minima are the running minimum's column read as a vector. -/
theorem pay5_apply (v7 : FVec Ideal S512x1 .f32) (r : Fin 512) : k0_pay5 (F := Ideal) v7 (ix1 r) = v7 (ix2 r (0 : Fin 1)) :=
  shapeCast_a1_a_apply v7 _ r

/-- The named constant the running minimum starts from is +∞ on the extended reals. -/
theorem pos_big_eq : Named.named (F := Ideal) Cert.KernelIdeal.κ "pos_big" (φ := .f32) 0x7149F2CA#32 = (⊤ : EReal) :=
  IdealRules.named_const.ideal_named_scalar _ _ _ _ rfl

/-- The running minimum starts at +∞ in every row. -/
theorem pay1_apply (r : Fin 512) : k0_pay1 (F := Ideal) (ix2 r (0 : Fin 1)) = (⊤ : EReal) :=
  pos_big_eq

/-! ## The matrix of clamped squared distances -/

/-- The squared lengths of the tile's points spread along the rows: entry `(r, s)` is |x_r|². -/
theorem x2_apply {a b : ℕ} (v : FVec Ideal ⟨2, ![a, 3]⟩ .f32) (h1 : (⟨2, ![a, 3]⟩ : Shape).Reduces [1] ⟨1, ![a]⟩)
    (hφ : FKind.Formats .f32) (hacc : (0x00000000#32 : BitVec 32) = FKind.add.neutral .f32 hφ)
    (h2 : (⟨1, ![a]⟩ : Shape).ShapeCasts ⟨2, ![a, 1]⟩) (h3 : (⟨2, ![a, 1]⟩ : Shape).Broadcasts ⟨2, ![a, b]⟩)
    (r : Fin a) (s : Fin b) :
    broadcastTo ⟨2, ![a, b]⟩
        (shapeCast ⟨2, ![a, 1]⟩ (multiReduction .add [1] ⟨1, ![a]⟩ (mulf v v) 0x00000000#32 h1 hφ hacc) h2) h3 (ix2 r s)
      = Chamfer.sq v r :=
  (broadcastTo_a1_ab_apply _ h3 r s).trans
    ((shapeCast_a_a1_apply _ h2 r (0 : Fin 1)).trans (rowSum_apply (mulf v v) _ h1 hφ hacc r))

/-- The squared lengths of the chunk's points spread along the columns: entry `(r, s)` is |y_s|². -/
theorem y2_apply {a b : ℕ} (w : FVec Ideal ⟨2, ![b, 3]⟩ .f32) (h1 : (⟨2, ![b, 3]⟩ : Shape).Reduces [1] ⟨1, ![b]⟩)
    (hφ : FKind.Formats .f32) (hacc : (0x00000000#32 : BitVec 32) = FKind.add.neutral .f32 hφ)
    (h2 : (⟨1, ![b]⟩ : Shape).ShapeCasts ⟨2, ![1, b]⟩) (h3 : (⟨2, ![1, b]⟩ : Shape).Broadcasts ⟨2, ![a, b]⟩)
    (r : Fin a) (s : Fin b) :
    broadcastTo ⟨2, ![a, b]⟩
        (shapeCast ⟨2, ![1, b]⟩ (multiReduction .add [1] ⟨1, ![b]⟩ (mulf w w) 0x00000000#32 h1 hφ hacc) h2) h3 (ix2 r s)
      = Chamfer.sq w s :=
  (broadcastTo_1b_ab_apply _ h3 r s).trans
    ((shapeCast_a_1a_apply _ h2 (0 : Fin 1) s).trans (rowSum_apply (mulf w w) _ h1 hφ hacc s))

/-! ### The product of the tile with the transposed chunk

The product contracts the coordinate axis of both operands: entry `(r, s)` reads the tile at `(r, k)` and the chunk at
`(s, k)`, `k` running over the three coordinates. -/

/-- The left operand's row is the entry's row. -/
theorem dot_lhs0 (i : S512x1024.Idx) (q : dot_S512x3_S1024x3_S512x1024_1_1_0_0_n_n.contr.Idx) :
    (dot_S512x3_S1024x3_S512x1024_1_1_0_0_n_n.lhsIdx i q 0).val = (i 0).val := by
  unfold DotDims.lhsIdx
  rw [dif_neg (show ¬(0 : Fin S512x3.rank) ∈ dot_S512x3_S1024x3_S512x1024_1_1_0_0_n_n.lhsBatch by decide),
    dif_pos (show (0 : Fin S512x3.rank) ∈ dot_S512x3_S1024x3_S512x1024_1_1_0_0_n_n.lhsNonContracting by decide)]
  rfl

/-- The left operand's column is the contracted coordinate. -/
theorem dot_lhs1 (i : S512x1024.Idx) (q : dot_S512x3_S1024x3_S512x1024_1_1_0_0_n_n.contr.Idx) :
    (dot_S512x3_S1024x3_S512x1024_1_1_0_0_n_n.lhsIdx i q 1).val = (q ⟨0, by decide⟩).val :=
  dot_S512x3_S1024x3_S512x1024_1_1_0_0_n_n.lhsIdx_val_of_single rfl i q

/-- The right operand's row is the entry's column. -/
theorem dot_rhs0 (i : S512x1024.Idx) (q : dot_S512x3_S1024x3_S512x1024_1_1_0_0_n_n.contr.Idx) :
    (dot_S512x3_S1024x3_S512x1024_1_1_0_0_n_n.rhsIdx i q 0).val = (i 1).val := by
  unfold DotDims.rhsIdx
  rw [dif_neg (show ¬(0 : Fin S1024x3.rank) ∈ dot_S512x3_S1024x3_S512x1024_1_1_0_0_n_n.rhsBatch by decide),
    dif_pos (show (0 : Fin S1024x3.rank) ∈ dot_S512x3_S1024x3_S512x1024_1_1_0_0_n_n.rhsNonContracting by decide)]
  rfl

/-- The right operand's column is the contracted coordinate. -/
theorem dot_rhs1 (i : S512x1024.Idx) (q : dot_S512x3_S1024x3_S512x1024_1_1_0_0_n_n.contr.Idx) :
    (dot_S512x3_S1024x3_S512x1024_1_1_0_0_n_n.rhsIdx i q 1).val = (q ⟨0, by decide⟩).val :=
  dot_S512x3_S1024x3_S512x1024_1_1_0_0_n_n.rhsIdx_val_of_single rfl i q

/-- The product into the zero array: entry `(r, s)` is the inner product of point `r` of the tile with point `s` of the
    chunk. -/
theorem dot_apply (v : FVec Ideal S512x3 .f32) (w : FVec Ideal S1024x3 .f32) (r : Fin 512) (s : Fin 1024) :
    matmul dot_S512x3_S1024x3_S512x1024_1_1_0_0_n_n (some .fp32) v w (constant (F := Ideal) S512x1024 .f32 0x00000000#32) (ix2 r s)
      = Chamfer.inner v w r s := by
  unfold Chamfer.inner
  refine (Ideal.matmul_constant_zero_apply dot_S512x3_S1024x3_S512x1024_1_1_0_0_n_n (some .fp32) v w (ix2 r s)).trans ?_
  rw [← Equiv.sum_comp (contrEquiv1 dot_S512x3_S1024x3_S512x1024_1_1_0_0_n_n 3 rfl rfl).symm]
  refine Finset.sum_congr rfl fun k _ => ?_
  have hk := contrEquiv1_symm_val dot_S512x3_S1024x3_S512x1024_1_1_0_0_n_n 3 rfl rfl k
  have el : dot_S512x3_S1024x3_S512x1024_1_1_0_0_n_n.lhsIdx (ix2 r s) ((contrEquiv1 dot_S512x3_S1024x3_S512x1024_1_1_0_0_n_n 3 rfl rfl).symm k) = ix2 r k :=
    funext fun a => Fin.ext (by
      match a with
      | ⟨0, _⟩ => exact dot_lhs0 _ _
      | ⟨1, _⟩ => exact (dot_lhs1 _ _).trans hk)
  have er : dot_S512x3_S1024x3_S512x1024_1_1_0_0_n_n.rhsIdx (ix2 r s) ((contrEquiv1 dot_S512x3_S1024x3_S512x1024_1_1_0_0_n_n 3 rfl rfl).symm k) = ix2 s k :=
    funext fun a => Fin.ext (by
      match a with
      | ⟨0, _⟩ => exact dot_rhs0 _ _
      | ⟨1, _⟩ => exact (dot_rhs1 _ _).trans hk)
  rw [el, er]

/-- Entry `(r, s)` of the matrix is the clamped squared distance of point `r` of the tile and point `s` of the chunk. -/
theorem pay2_apply (v0 : Vec Ideal S512x3 .f32) (v13 : Vec Ideal S1024x3 .f32) (r : Fin 512) (s : Fin 1024) :
    k0_pay2 (F := Ideal) v0 v13 (ix2 r s) = Chamfer.dist2 v0 v13 r s := by
  unfold k0_pay2 Chamfer.dist2
  simp only [shapeCast_self]
  exact congrArg₂ max
    (congrArg₂ (· - ·)
      (congrArg₂ (· + ·) (x2_apply v0 _ _ _ _ _ r s) (y2_apply v13 _ _ _ _ _ r s))
      (congrArg (_ * ·) (dot_apply v0 v13 r s)))
    rfl

/-! ## The minima along rows and columns -/

/-- Inserting the row `r` in front of the column index `s` gives the entry `(r, s)`. -/
theorem lift_first_ix2 {a b : ℕ} (h : (⟨2, ![a, b]⟩ : Shape).Reduces [0] ⟨1, ![b]⟩) (s : Fin b) (r : Fin a) :
    h.lift (ix1 s) r = ix2 r s := by
  funext d
  refine Fin.ext ?_
  match d with
  | ⟨0, _⟩ => rfl
  | ⟨1, _⟩ => rfl

/-- A row's minimum: the fold of `min` over the row's entries, from the accumulator's value. -/
theorem rowMin_apply {φ : FTy} {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (t : Fin a) :
    multiReduction .minimumf [1] ⟨1, ![a]⟩ v acc h hφ hacc (ix1 t)
      = (Finset.univ : Finset (Fin b)).fold min (Ideal.ofBits φ acc) (fun s => v (ix2 t s)) := by
  rw [multiReduction_minimumf_eq_fold]
  refine (h.fold_filter_drop_single _ _ v (ix1 t)).trans ?_
  have e : (v ∘ h.lift (ix1 t)) = fun s : Fin b => v (ix2 t s) := funext fun s => congrArg v (lift_last_ix2 h t s)
  rw [e]
  rfl

/-- A column's minimum: the fold of `min` over the column's entries, from the accumulator's value. -/
theorem colMin_apply {φ : FTy} {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (s : Fin b) :
    multiReduction .minimumf [0] ⟨1, ![b]⟩ v acc h hφ hacc (ix1 s)
      = (Finset.univ : Finset (Fin a)).fold min (Ideal.ofBits φ acc) (fun r => v (ix2 r s)) := by
  rw [multiReduction_minimumf_eq_fold]
  refine (h.fold_filter_drop_single _ _ v (ix1 s)).trans ?_
  have e : (v ∘ h.lift (ix1 s)) = fun r : Fin a => v (ix2 r s) := funext fun r => congrArg v (lift_first_ix2 h s r)
  rw [e]
  rfl

/-- The running minimum after a pass: in row `r`, the smaller of its previous value and the least squared distance from
    point `r` of the tile to the chunk's points. -/
theorem pay4_apply (v0 : Vec Ideal S512x3 .f32) (acc : FVec Ideal S512x1 .f32) (v13 : Vec Ideal S1024x3 .f32) (r : Fin 512) :
    k0_pay4 (F := Ideal) v0 acc v13 (ix2 r (0 : Fin 1)) = min (acc (ix2 r (0 : Fin 1))) (Chamfer.rowMin v0 v13 r) := by
  simp only [k0_pay4, minimumf_apply]
  refine congrArg (min (acc (ix2 r (0 : Fin 1)))) ?_
  refine (shapeCast_a_a1_apply _ _ r (0 : Fin 1)).trans ?_
  refine (rowMin_apply (k0_pay2 (F := Ideal) v0 v13) _ _ _ _ r).trans ?_
  rw [Cert.LibSums.ofBits_inf_f32]
  unfold Chamfer.rowMin
  exact congrArg (fun f => (Finset.univ : Finset (Fin 1024)).fold min (⊤ : EReal) f) (funext fun s => pay2_apply v0 v13 r s)

/-- The stored column minima: at column `s`, the least squared distance from point `s` of the chunk to the tile's points. -/
theorem pay3_apply (v0 : Vec Ideal S512x3 .f32) (v13 : Vec Ideal S1024x3 .f32) (s : Fin 1024) :
    k0_pay3 (F := Ideal) v0 v13 (ix3 (0 : Fin 1) (0 : Fin 1) s) = Chamfer.colMin v0 v13 s := by
  unfold k0_pay3
  refine (shapeCast_a_11a_apply _ _ (0 : Fin 1) (0 : Fin 1) s).trans ?_
  refine (colMin_apply (k0_pay2 (F := Ideal) v0 v13) _ _ _ _ s).trans ?_
  rw [Cert.LibSums.ofBits_inf_f32]
  unfold Chamfer.colMin
  exact congrArg (fun f => (Finset.univ : Finset (Fin 512)).fold min (⊤ : EReal) f) (funext fun r => pay2_apply v0 v13 r s)

end Cert.KernelIdeal.Pay

end
-- ==== Proof.LibMinFold.lean ====
/-
  Least values over finite ranges, as folds of `min` from the top element of a linear order with top.

  A value is below such a fold exactly when it is below every entry; so two folds over the same entries, however
  the entries are grouped or ordered, are equal. Two groupings are used: a range of A·B entries cut into A
  consecutive stretches of B, the least value taken per stretch and then over the stretches; and the same
  stretches met one after the other by a running minimum that starts at the top element.
-/
import Mathlib.Data.Finset.Fold
import Mathlib.Order.Lattice
import Mathlib.Data.Fintype.Basic
import Mathlib.Tactic

namespace Cert.LibMinFold

variable {α : Type*} [LinearOrder α] [OrderTop α]

/-- A value is below the least entry of a finite family exactly when it is below every entry. -/
theorem le_foldMin_iff {ι : Type*} [Fintype ι] (f : ι → α) (z : α) :
    z ≤ (Finset.univ : Finset ι).fold min ⊤ f ↔ ∀ x, z ≤ f x := by
  rw [Finset.le_fold_min]
  exact ⟨fun h x => h.2 x (Finset.mem_univ x), fun h => ⟨le_top, fun x _ => h x⟩⟩

/-- Two finite families with the same lower bounds have the same least entry. -/
theorem foldMin_eq_of_forall {ι κ : Type*} [Fintype ι] [Fintype κ] (f : ι → α) (g : κ → α)
    (h : ∀ z, (∀ x, z ≤ f x) ↔ ∀ y, z ≤ g y) :
    (Finset.univ : Finset ι).fold min ⊤ f = (Finset.univ : Finset κ).fold min ⊤ g :=
  eq_of_forall_le_iff fun z => by rw [le_foldMin_iff, le_foldMin_iff]; exact h z

/-- Pointwise equal families have the same least entry. -/
theorem foldMin_congr {ι : Type*} [Fintype ι] (f g : ι → α) (h : ∀ x, f x = g x) :
    (Finset.univ : Finset ι).fold min ⊤ f = (Finset.univ : Finset ι).fold min ⊤ g := by
  rw [show f = g from funext h]

/-- A range of `N = A·B` entries cut into `A` stretches of `B`: entry `r` of stretch `t` is entry `B·t + r`. The least
    over the stretches of each stretch's least entry is the least entry of the range. -/
theorem foldMin_stretches {A B N : ℕ} (hN : N = A * B) (f : Fin N → α) (g : Fin A → Fin B → α)
    (hg : ∀ (t : Fin A) (r : Fin B) (h : B * t.val + r.val < N), g t r = f ⟨B * t.val + r.val, h⟩) :
    (Finset.univ : Finset (Fin A)).fold min ⊤ (fun t => (Finset.univ : Finset (Fin B)).fold min ⊤ (g t))
      = (Finset.univ : Finset (Fin N)).fold min ⊤ f := by
  refine eq_of_forall_le_iff fun z => ?_
  rw [le_foldMin_iff, le_foldMin_iff]
  constructor
  · intro h i
    have hi : i.val < A * B := hN ▸ i.isLt
    have hB : 0 < B := by
      rcases Nat.eq_zero_or_pos B with h0 | h0
      · rw [h0, Nat.mul_zero] at hi; omega
      · exact h0
    have ht : i.val / B < A := Nat.div_lt_of_lt_mul (by rw [Nat.mul_comm]; exact hi)
    have hr : i.val % B < B := Nat.mod_lt _ hB
    have e : B * (i.val / B) + i.val % B = i.val := Nat.div_add_mod _ _
    have h1 := (le_foldMin_iff (g ⟨i.val / B, ht⟩) z).mp (h ⟨i.val / B, ht⟩) ⟨i.val % B, hr⟩
    rw [hg ⟨i.val / B, ht⟩ ⟨i.val % B, hr⟩ (by show B * (i.val / B) + i.val % B < N; rw [e]; exact i.isLt)] at h1
    have e' : (⟨B * (i.val / B) + i.val % B, by rw [e]; exact i.isLt⟩ : Fin N) = i := Fin.ext e
    rwa [e'] at h1
  · intro h t
    rw [le_foldMin_iff]
    intro r
    have hlt : B * t.val + r.val < N := by
      have h1 : B * t.val + r.val < B * (t.val + 1) := by rw [Nat.mul_succ]; exact Nat.add_lt_add_left r.isLt _
      have h2 : B * (t.val + 1) ≤ B * A := Nat.mul_le_mul_left _ t.isLt
      rw [hN, Nat.mul_comm A B]; omega
    rw [hg t r hlt]
    exact h _

/-- The same stretches met one after the other: a running value starts at the top element and after stretch `k`
    is its minimum with that stretch's least entry. After all `A` stretches it is the least entry of the range. -/
theorem runningMin_stretches {A B N : ℕ} (hN : N = A * B) (f : Fin N → α) (g : Fin A → Fin B → α)
    (hg : ∀ (t : Fin A) (r : Fin B) (h : B * t.val + r.val < N), g t r = f ⟨B * t.val + r.val, h⟩)
    (a : ℕ → α) (h0 : a 0 = ⊤)
    (hs : ∀ (k : ℕ) (hk : k < A), a (k + 1) = min (a k) ((Finset.univ : Finset (Fin B)).fold min ⊤ (g ⟨k, hk⟩))) :
    a A = (Finset.univ : Finset (Fin N)).fold min ⊤ f := by
  have inv : ∀ k, k ≤ A → ∀ z, z ≤ a k ↔ ∀ t : Fin A, t.val < k → ∀ r, z ≤ g t r := by
    intro k
    induction k with
    | zero => intro _ z; rw [h0]; exact ⟨fun _ t ht => absurd ht (Nat.not_lt_zero _), fun _ => le_top⟩
    | succ k ih =>
      intro hk z
      have hk' : k < A := hk
      rw [hs k hk', le_min_iff, ih (Nat.le_of_lt hk') z, le_foldMin_iff]
      constructor
      · rintro ⟨h1, h2⟩ t ht r
        rcases Nat.lt_succ_iff_lt_or_eq.mp ht with h | h
        · exact h1 t h r
        · have : t = ⟨k, hk'⟩ := Fin.ext h
          rw [this]; exact h2 r
      · intro h
        exact ⟨fun t ht r => h t (Nat.lt_succ_of_lt ht) r, fun r => h ⟨k, hk'⟩ (Nat.lt_succ_self k) r⟩
  rw [← foldMin_stretches hN f g hg]
  refine eq_of_forall_le_iff fun z => ?_
  rw [inv A (Nat.le_refl A) z, le_foldMin_iff]
  exact ⟨fun h t => (le_foldMin_iff (g t) z).mpr (h t t.isLt), fun h t _ r => (le_foldMin_iff (g t) z).mp (h t) r⟩

end Cert.LibMinFold
-- ==== Proof.SpecLemmas.lean ====
/-
  How the chamfer quantities of a tile or a chunk sit inside those of the whole clouds.

  The squared distance of two points reads only those two points' rows; so a cloud may be replaced by any other
  that has the same row there. A tile of 512 consecutive rows of the moved cloud therefore has the row minima of
  those rows of the whole cloud, and its column minima are the least distances over those 512 rows; a chunk of 1024
  consecutive rows of the fixed cloud has the column minima of those columns, and its row minima are the least
  distances over those 1024 columns. Regrouping the rows into 32 tiles recovers the whole cloud's column minima.
-/
import proofs.«179176_j9955734192761_2_alg».proof.Proof.Spec
import proofs.«179176_j9955734192761_2_alg».proof.Proof.LibMinFold

noncomputable section

open Idealize.ShloMosaic Idealize.ShloMosaic.ValueIdx Cert.LibMinFold

namespace Chamfer

variable {n m n' m' : ℕ}

/-- The squared distance reads only row `i` of the first cloud and row `j` of the second. -/
theorem dist2_congr (x : Pts n) (y : Pts m) (x' : Pts n') (y' : Pts m') (i : Fin n) (j : Fin m) (i' : Fin n') (j' : Fin m')
    (hx : ∀ k, x (ix2 i k) = x' (ix2 i' k)) (hy : ∀ k, y (ix2 j k) = y' (ix2 j' k)) :
    dist2 x y i j = dist2 x' y' i' j' := by
  unfold dist2 sq inner
  simp only [hx, hy]

/-- A value is below a row minimum exactly when it is below every distance of the row. -/
theorem le_rowMin_iff (x : Pts n) (y : Pts m) (i : Fin n) (z : EReal) : z ≤ rowMin x y i ↔ ∀ j, z ≤ dist2 x y i j :=
  le_foldMin_iff _ z

/-- Row `r` of a tile that holds rows 512·T … of `X`, against a cloud with the rows of `Y`: the row minimum of row
    512·T + r of `X` against `Y`. -/
theorem rowMin_tile (x0 : Pts 512) (x1 X Y : Pts 16384) (T : ℕ)
    (h0 : ∀ (r : Fin 512) (k : Fin 3) (h : 512 * T + r.val < 16384), x0 (ix2 r k) = X (ix2 (⟨512 * T + r.val, h⟩ : Fin 16384) k))
    (h1 : ∀ (j : Fin 16384) (k : Fin 3), x1 (ix2 j k) = Y (ix2 j k)) (r : Fin 512) (h : 512 * T + r.val < 16384) :
    rowMin x0 x1 r = rowMin X Y ⟨512 * T + r.val, h⟩ := by
  unfold rowMin
  exact foldMin_congr _ _ fun j => dist2_congr _ _ _ _ _ _ _ _ (fun k => h0 r k h) (fun k => h1 j k)

/-- The column minimum of such a tile at column `j`: the least distance to point `j` of `Y` over the tile's 512 rows
    of `X`. -/
theorem colMin_tile (x0 : Pts 512) (x1 X Y : Pts 16384) (T : ℕ) (hT : T < 32)
    (h0 : ∀ (r : Fin 512) (k : Fin 3) (h : 512 * T + r.val < 16384), x0 (ix2 r k) = X (ix2 (⟨512 * T + r.val, h⟩ : Fin 16384) k))
    (h1 : ∀ (j : Fin 16384) (k : Fin 3), x1 (ix2 j k) = Y (ix2 j k)) (j : Fin 16384) :
    colMin x0 x1 j
      = (Finset.univ : Finset (Fin 512)).fold min ⊤
          (fun r => dist2 X Y (⟨512 * T + r.val, by have := r.isLt; omega⟩ : Fin 16384) j) := by
  unfold colMin
  exact foldMin_congr _ _ fun r => dist2_congr _ _ _ _ _ _ _ _ (fun k => h0 r k _) (fun k => h1 j k)

/-- The per-tile column minima as a stack of 32 rows: entry (t, 0, j) is the least distance to point `j` of `Y` over
    the 512 rows of tile `t` of `X`. -/
def tileCols (X Y : Pts 16384) : (⟨3, ![32, 1, 16384]⟩ : Shape).Idx → EReal := fun i =>
  (Finset.univ : Finset (Fin 512)).fold min ⊤
    (fun r => dist2 X Y
      (⟨512 * (i 0).val + r.val, by have h0 : (i 0).val < 32 := (i 0).isLt; have := r.isLt; omega⟩ : Fin 16384)
      (⟨(i 2).val, (i 2).isLt⟩ : Fin 16384))

theorem tileCols_ix3 (X Y : Pts 16384) (t : Fin 32) (u : Fin 1) (j : Fin 16384) :
    tileCols X Y (ix3 t u j)
      = (Finset.univ : Finset (Fin 512)).fold min ⊤
          (fun r => dist2 X Y (⟨512 * t.val + r.val, by have := t.isLt; have := r.isLt; omega⟩ : Fin 16384) j) := rfl

/-- The least over the 32 tiles of each tile's least distance to point `j` is the column minimum of the whole cloud. -/
theorem colMin_tiles (X Y : Pts 16384) (j : Fin 16384) (g : Fin 32 → Fin 512 → EReal)
    (hg : ∀ (t : Fin 32) (r : Fin 512) (h : 512 * t.val + r.val < 16384), g t r = dist2 X Y ⟨512 * t.val + r.val, h⟩ j) :
    (Finset.univ : Finset (Fin 32)).fold min ⊤ (fun t => (Finset.univ : Finset (Fin 512)).fold min ⊤ (g t))
      = colMin X Y j := by
  unfold colMin
  exact foldMin_stretches (A := 32) (B := 512) (N := 16384) rfl (fun i => dist2 X Y i j) g hg

/-- Column `s` of a chunk that holds rows 1024·K … of the fixed cloud `x1`: the column minimum of column
    1024·K + s of the whole cloud. -/
theorem colMin_chunk (x0 : Pts 512) (ch : Pts 1024) (x1 : Pts 16384) (K : ℕ)
    (hc : ∀ (s : Fin 1024) (k : Fin 3) (h : 1024 * K + s.val < 16384), ch (ix2 s k) = x1 (ix2 (⟨1024 * K + s.val, h⟩ : Fin 16384) k))
    (s : Fin 1024) (h : 1024 * K + s.val < 16384) :
    colMin x0 ch s = colMin x0 x1 ⟨1024 * K + s.val, h⟩ := by
  unfold colMin
  exact foldMin_congr _ _ fun r => dist2_congr _ _ _ _ _ _ _ _ (fun _ => rfl) (fun k => hc s k h)

/-- The row minimum of such a chunk at row `r`: the least distance from point `r` over the chunk's 1024 columns. -/
theorem rowMin_chunk (x0 : Pts 512) (ch : Pts 1024) (x1 : Pts 16384) (K : ℕ) (hK : K < 16)
    (hc : ∀ (s : Fin 1024) (k : Fin 3) (h : 1024 * K + s.val < 16384), ch (ix2 s k) = x1 (ix2 (⟨1024 * K + s.val, h⟩ : Fin 16384) k))
    (r : Fin 512) :
    rowMin x0 ch r
      = (Finset.univ : Finset (Fin 1024)).fold min ⊤
          (fun s => dist2 x0 x1 r (⟨1024 * K + s.val, by have := s.isLt; omega⟩ : Fin 16384)) := by
  unfold rowMin
  exact foldMin_congr _ _ fun s => dist2_congr _ _ _ _ _ _ _ _ (fun _ => rfl) (fun k => hc s k _)

end Chamfer

end
-- ==== Proof.LoopValue.lean ====
/-
  The two outputs of the kernel body as functions of the tile and the fixed cloud.

  By induction over the loop's trips. The carried vector of row minima starts at +∞ and after trip k is its entrywise
  minimum with the row minima of chunk k; so after the 16 trips entry r is the least squared distance from point r
  of the tile to all 16384 fixed points. Every stored piece of the column row is a stretch of one function of the
  column index, the tile's column minima; the 16 pieces tile the row, so the row reads back as that function.
-/
import proofs.«179176_j9955734192761_2_alg».proof.Proof.LoopRun
import proofs.«179176_j9955734192761_2_alg».proof.Proof.Payload
import proofs.«179176_j9955734192761_2_alg».proof.Proof.SpecLemmas
import Idealize.ShloMosaic.Lib.Pipeline.Value

set_option maxRecDepth 16384

noncomputable section

namespace Cert.KernelIdeal.LoopValue

open Idealize.ShloMosaic Idealize.ShloMosaic.TcCoe Idealize.ShloMosaic.ValueIdx
open Idealize.SL Idealize.SL.Sem
open Cert.KernelIdeal Cert.KernelIdeal.Gen
open Cert.KernelIdeal.LoopRun Cert.KernelIdeal.Pay Cert.LibMinFold

section

variable (c : Dev nD) (i : grid0.Coords) (arg1 : Memref sig .tc .vmem S512x3 .f32) (harg1 : arg1.IsWhole) (arg2 : Memref sig .tc .vmem S16384x3 .f32) (harg2 : arg2.IsWhole) (arg3 : Memref sig .tc .vmem S512 .f32) (harg3 : arg3.IsWhole) (arg4 : Memref sig .tc .vmem S1x1x16384 .f32) (harg4 : arg4.IsWhole)
  (x0 : Vec Ideal S512x3 .f32) (x1 : Vec Ideal S16384x3 .f32)

/-- The loop's state before trip `k`: the carried row minima and the pieces stored so far. -/
abbrev st (k : ℕ) : (FVec Ideal S512x1 .f32) × List (View.Piece (Elt Ideal) S1x1x16384 .f32) :=
  st_k0_t1 (F := Ideal) Variants.none c none i arg1 harg1 arg2 harg2 arg3 harg3 arg4 harg4 x0 (harg2.unread x1)
    (k0_pay1 (F := Ideal)) k

/-- Trip `k` as an index of the loop. -/
abbrev trip (k : ℕ) (hk : k < 16) : Fin k0_t1_loop.trips := ⟨k, trips_eq ▸ hk⟩

/-- Chunk `k` of the fixed cloud. -/
abbrev ch (k : ℕ) (hk : k < 16) : Vec Ideal S1024x3 .f32 := chunk arg2 (harg2.unread x1) (trip k hk)

/-- One trip: the carried value meets the chunk's row minima, and the chunk's column minima are stored in front. -/
theorem st_succ (k : ℕ) (hk : k < 16) :
    st c i arg1 harg1 arg2 harg2 arg3 harg3 arg4 harg4 x0 x1 (k + 1)
      = (k0_pay4 (F := Ideal) x0 (st c i arg1 harg1 arg2 harg2 arg3 harg3 arg4 harg4 x0 x1 k).1 (ch arg2 harg2 x1 k hk),
         [(⟨Rect.unit (s := S1x1x16384) (k0_off2 (trip k hk)) S1x1x1024.size (k0_off2_inb (trip k hk)),
            k0_pay3 (F := Ideal) x0 (ch arg2 harg2 x1 k hk)⟩ : View.Piece (Elt Ideal) S1x1x16384 .f32)]
           ++ (st c i arg1 harg1 arg2 harg2 arg3 harg3 arg4 harg4 x0 x1 k).2) := by
  have h := st_k0_t1_succ (F := Ideal) Variants.none c none i arg1 harg1 arg2 harg2 arg3 harg3 arg4 harg4 x0
    (harg2.unread x1) (k0_pay1 (F := Ideal)) (trip k hk)
  rw [tripR_eq, tripL_eq] at h
  exact h

/-- Row `s` of chunk `k` is row 1024·k + s of the fixed cloud. -/
theorem ch_apply (k : ℕ) (hk : k < 16) (s : Fin 1024) (d : Fin 3) (h : 1024 * k + s.val < 16384) :
    ch arg2 harg2 x1 k hk (ix2 s d) = x1 (ix2 (⟨1024 * k + s.val, h⟩ : Fin 16384) d) :=
  chunk_apply arg2 harg2 x1 (trip k hk) s d h

/-- After the 16 trips entry `r` of the carried vector is the tile's row minimum at `r` against the whole fixed cloud. -/
theorem carried_final (r : Fin 512) :
    (st c i arg1 harg1 arg2 harg2 arg3 harg3 arg4 harg4 x0 x1 16).1 (ix2 r (0 : Fin 1)) = Chamfer.rowMin x0 x1 r := by
  unfold Chamfer.rowMin
  refine runningMin_stretches (A := 16) (B := 1024) (N := 16384) rfl (fun j => Chamfer.dist2 x0 x1 r j)
    (fun t s => Chamfer.dist2 x0 x1 r (⟨1024 * t.val + s.val, by have := t.isLt; have := s.isLt; omega⟩ : Fin 16384))
    (fun t s h => rfl) (fun k => (st c i arg1 harg1 arg2 harg2 arg3 harg3 arg4 harg4 x0 x1 k).1 (ix2 r (0 : Fin 1))) ?_ ?_
  · exact pay1_apply r
  · intro k hk
    show (st c i arg1 harg1 arg2 harg2 arg3 harg3 arg4 harg4 x0 x1 (k + 1)).1 (ix2 r (0 : Fin 1)) = _
    rw [st_succ c i arg1 harg1 arg2 harg2 arg3 harg3 arg4 harg4 x0 x1 k hk]
    show k0_pay4 (F := Ideal) x0 (st c i arg1 harg1 arg2 harg2 arg3 harg3 arg4 harg4 x0 x1 k).1 (ch arg2 harg2 x1 k hk) (ix2 r (0 : Fin 1)) = _
    rw [pay4_apply]
    refine congrArg (min _) ?_
    exact Chamfer.rowMin_chunk x0 (ch arg2 harg2 x1 k hk) x1 k hk (fun s d h => ch_apply arg2 harg2 x1 k hk s d h) r

/-- The tile's column minima as a function of the column row's index. -/
def colsFn : S1x1x16384.Idx → EReal := fun y => Chamfer.colMin x0 x1 (⟨(y 2).val, (y 2).isLt⟩ : Fin 16384)

/-- The piece trip `k` stores is the stretch of the tile's column minima at the piece's place. -/
theorem piece_ok (k : ℕ) (hk : k < 16)
    (x : (Rect.unit (s := S1x1x16384) (k0_off2 (trip k hk)) S1x1x1024.size (k0_off2_inb (trip k hk))).shape.Idx) :
    k0_pay3 (F := Ideal) x0 (ch arg2 harg2 x1 k hk) x
      = colsFn x0 x1 ((Rect.unit (s := S1x1x16384) (k0_off2 (trip k hk)) S1x1x1024.size (k0_off2_inb (trip k hk))).emb x) := by
  obtain ⟨u, u', s, rfl⟩ : ∃ (u u' : Fin 1) (s : Fin 1024), x = ix3 u u' s := ⟨x 0, x 1, x 2, eq_ix3 x⟩
  obtain rfl : u = 0 := Subsingleton.elim _ _
  obtain rfl : u' = 0 := Subsingleton.elim _ _
  rw [pay3_apply]
  have hlt : 1024 * k + s.val < 16384 := by have := s.isLt; omega
  rw [Chamfer.colMin_chunk x0 (ch arg2 harg2 x1 k hk) x1 k (fun s d h => ch_apply arg2 harg2 x1 k hk s d h) s hlt]
  unfold colsFn
  refine congrArg (Chamfer.colMin x0 x1) (Fin.ext ?_)
  show 1024 * k + s.val = k0_off2 (trip k hk) 2 + 1 * s.val
  rw [k0_off2_eq]
  show 1024 * k + s.val = 1024 * k + 1 * s.val
  omega

/-- A stored piece is good when it is the stretch of the tile's column minima at its place. -/
def Good (p : View.Piece (Elt Ideal) S1x1x16384 .f32) : Prop :=
  ∀ x : p.1.shape.Idx, p.2 x = colsFn x0 x1 (p.1.emb x)

/-- Every piece stored before trip `k` is good. -/
theorem pieces_ok (k : ℕ) (hk : k ≤ 16) : ∀ p ∈ (st c i arg1 harg1 arg2 harg2 arg3 harg3 arg4 harg4 x0 x1 k).2, Good x0 x1 p := by
  induction k with
  | zero => intro p hp; exact absurd hp List.not_mem_nil
  | succ k ih =>
    intro p hp
    have hk' : k < 16 := hk
    rw [st_succ c i arg1 harg1 arg2 harg2 arg3 harg3 arg4 harg4 x0 x1 k hk'] at hp
    rcases List.mem_append.mp hp with h | h
    · rw [List.mem_singleton.mp h]
      unfold Good
      dsimp only
      exact fun x => piece_ok arg2 harg2 x0 x1 k hk' x
    · exact ih (Nat.le_of_lt hk') p h

theorem hz1 : (![0] : Fin 1 → Nat) = fun _ => 0 := funext fun a => by match a with | ⟨0, _⟩ => rfl

/-- THE ROW OUTPUT of the body on a tile `x0` and the fixed cloud `x1`: entry `r` is the tile's row minimum at `r`. -/
theorem rows_apply (r : Fin 512) :
    out0_A_2 (F := Ideal) c i arg1 harg1 arg2 harg2 arg3 harg3 arg4 harg4 x0 x1 (ix1 r) = Chamfer.rowMin x0 x1 r := by
  unfold out0_A_2
  rw [View.read_writes_eq_canon _ _ _ (cover0_A_2 (F := Ideal) c i arg1 harg1 arg2 harg2 arg3 harg3 arg4 harg4 x0 x1), run_rows,
    View.canon_unit_zero hz1, pay5_apply]
  have h := carried_final c i arg1 harg1 arg2 harg2 arg3 harg3 arg4 harg4 x0 x1 r
  unfold final
  rw [trips_eq]
  exact h

/-- THE COLUMN OUTPUT: entry (0, 0, j) is the tile's column minimum at `j`. -/
theorem cols_apply (j : Fin 16384) :
    out0_A_3 (F := Ideal) c i arg1 harg1 arg2 harg2 arg3 harg3 arg4 harg4 x0 x1 (ix3 (0 : Fin 1) (0 : Fin 1) j) = Chamfer.colMin x0 x1 j := by
  unfold out0_A_3
  rw [View.read_writes_eq_canon _ _ _ (cover0_A_3 (F := Ideal) c i arg1 harg1 arg2 harg2 arg3 harg3 arg4 harg4 x0 x1)]
  have hp : ∀ p ∈ (kernelRun0_A (F := Ideal) c i arg1 harg1 arg2 harg2 arg3 harg3 arg4 harg4 x0 x1).2.1, Good x0 x1 p := by
    rw [run_cols]
    unfold final
    rw [trips_eq]
    exact pieces_ok c i arg1 harg1 arg2 harg2 arg3 harg3 arg4 harg4 x0 x1 16 (Nat.le_refl 16)
  exact View.canon_apply_of_pieces (colsFn x0 x1) _ hp _ (cover0_A_3 (F := Ideal) c i arg1 harg1 arg2 harg2 arg3 harg3 arg4 harg4 x0 x1 _)

end

end Cert.KernelIdeal.LoopValue

end
-- ==== Proof.Blocks.lean ====
/-
  The two arrays the region leaves.

  At point t the body's row output is, entry r, the least squared distance from row 512·t + r of the moved cloud to
  the fixed cloud: block t of the whole cloud's row minima. Its column output is, entry j, the least squared distance
  to point j of the fixed cloud over the tile's 512 rows: row t of the stack of per-tile column minima. The blocks
  tile both arrays, so after the 32 points the arrays hold the row minima and the stack.
-/
import proofs.«179176_j9955734192761_2_alg».proof.Proof.BlocksIdx
import proofs.«179176_j9955734192761_2_alg».proof.Proof.LoopValue
import proofs.«179176_j9955734192761_2_alg».proof.Proof.SpecLemmas

set_option maxRecDepth 16384

noncomputable section

namespace Cert.KernelIdeal.Blocks

open Idealize.ShloMosaic Idealize.ShloMosaic.TcCoe Idealize.ShloMosaic.ValueIdx
open Idealize.SL Idealize.SL.Sem
open Cert.KernelIdeal Cert.KernelIdeal.Gen
open Idealize.ShloMosaic.Pipeline (Dat Cfg Window)
open Cert.KernelIdeal.LoopValue Cert.LibMinFold

variable (m : (ℓ : Loc nD τ sig) → Buf (Elt Ideal) ℓ)

/-- The body's row output at point t, entry r: the row minimum of row 512·t + r of the moved cloud. -/
theorem rows_at (c : Dev nD) (t : Fin cfg0.N) (r : Fin 512) (hlt : 512 * t.val + r.val < 16384) :
    out0_A_2 (F := Ideal) c (grid0.coords t) (ms0_0 t) (hs0_0 t) (ms0_1 t) (hs0_1 t) (ms0_2 t) (hs0_2 t) (ms0_3 t) (hs0_3 t) (iblk m c 0 t) (iblk m c 1 t) (ix1 r)
      = Chamfer.rowMinArr (X m c) (Y m c) (ix1 (⟨512 * t.val + r.val, hlt⟩ : Fin 16384)) := by
  refine (rows_apply c (grid0.coords t) (ms0_0 t) (hs0_0 t) (ms0_1 t) (hs0_1 t) (ms0_2 t) (hs0_2 t) (ms0_3 t) (hs0_3 t) (iblk m c 0 t) (iblk m c 1 t) r).trans ?_
  exact Chamfer.rowMin_tile (iblk m c 0 t : Vec Ideal S512x3 .f32) (iblk m c 1 t : Vec Ideal S16384x3 .f32) (X m c) (Y m c) t.val
    (fun r k h => tile_apply m c t r k h) (fun j k => fixed_apply m c t j k) r hlt

/-- The body's column output at point t, entry j: row t of the stack of per-tile column minima. -/
theorem cols_at (c : Dev nD) (t : Fin cfg0.N) (j : Fin 16384) :
    out0_A_3 (F := Ideal) c (grid0.coords t) (ms0_0 t) (hs0_0 t) (ms0_1 t) (hs0_1 t) (ms0_2 t) (hs0_2 t) (ms0_3 t) (hs0_3 t) (iblk m c 0 t) (iblk m c 1 t) (ix3 (0 : Fin 1) (0 : Fin 1) j)
      = Chamfer.tileCols (X m c) (Y m c) (ix3 (⟨t.val, t_lt t⟩ : Fin 32) (0 : Fin 1) j) := by
  refine (cols_apply c (grid0.coords t) (ms0_0 t) (hs0_0 t) (ms0_1 t) (hs0_1 t) (ms0_2 t) (hs0_2 t) (ms0_3 t) (hs0_3 t) (iblk m c 0 t) (iblk m c 1 t) j).trans ?_
  rw [Chamfer.tileCols_ix3]
  exact Chamfer.colMin_tile (iblk m c 0 t : Vec Ideal S512x3 .f32) (iblk m c 1 t : Vec Ideal S16384x3 .f32) (X m c) (Y m c) t.val (t_lt t)
    (fun r k h => tile_apply m c t r k h) (fun j k => fixed_apply m c t j k) j

/-- WHAT POINT t WRITES BACK to the row minima is block t of the whole cloud's row minima. -/
theorem flushed2_eq (c : Dev nD) (t : Fin cfg0.N) :
    (dats m 0 c).flushed 2 t = ((cfg0.win 2).blk t).view.read (Elt Ideal) (Chamfer.rowMinArr (X m c) (Y m c)) := by
  obtain ⟨-, -, -, -, e2, -⟩ := idx_facts t
  have ht := t_lt t
  have key := rows_at m c t
  show (cfg0.win 2).cut (grid0.coords t) ((dats m 0 c).after 2 t) = _
  rw [after0_2]
  unfold outsAt0
  dsimp only
  generalize out0_A_2 (F := Ideal) c (grid0.coords t) (ms0_0 t) (hs0_0 t) (ms0_1 t) (hs0_1 t) (ms0_2 t) (hs0_2 t) (ms0_3 t) (hs0_3 t) (iblk m c 0 t) (iblk m c 1 t) = O at key ⊢
  generalize Chamfer.rowMinArr (X m c) (Y m c) = G at key ⊢
  funext j
  obtain ⟨r, rfl⟩ : ∃ r : Fin 512, j = ix1 r := ⟨j 0, eq_ix1 j⟩
  have hlt : 512 * t.val + r.val < 16384 := by have := r.isLt; omega
  show O (ix1 r) = G (((cfg0.win 2).blk t).view.emb (ix1 r))
  rw [key r hlt]
  refine congrArg G (funext fun a => Fin.ext ?_)
  match a with
  | ⟨0, _⟩ =>
    show 512 * t.val + r.val = win0_2.index t 0 * 512 + 1 * r.val
    rw [e2]; omega

/-- THE ROW MINIMA after the run. -/
theorem final2 (c : Dev nD) : (dats m 0 c).arrAt 2 cfg0.N = Chamfer.rowMinArr (X m c) (Y m c) :=
  (dats m 0 c).arrAt_eq_of_cover 2 (Chamfer.rowMinArr (X m c) (Y m c)) (fun t _ => flushed2_eq m c t) cover2

/-- WHAT POINT t WRITES BACK to the stack is row t of the per-tile column minima. -/
theorem flushed3_eq (c : Dev nD) (t : Fin cfg0.N) :
    (dats m 0 c).flushed 3 t = ((cfg0.win 3).blk t).view.read (Elt Ideal) (Chamfer.tileCols (X m c) (Y m c)) := by
  obtain ⟨-, -, -, -, -, e0, e1, e2⟩ := idx_facts t
  have ht := t_lt t
  have key := cols_at m c t
  show (cfg0.win 3).cut (grid0.coords t) ((dats m 0 c).after 3 t) = _
  rw [after0_3]
  unfold outsAt0
  dsimp only
  generalize out0_A_3 (F := Ideal) c (grid0.coords t) (ms0_0 t) (hs0_0 t) (ms0_1 t) (hs0_1 t) (ms0_2 t) (hs0_2 t) (ms0_3 t) (hs0_3 t) (iblk m c 0 t) (iblk m c 1 t) = O at key ⊢
  generalize Chamfer.tileCols (X m c) (Y m c) = G at key ⊢
  funext j
  obtain ⟨u, u', jj, rfl⟩ : ∃ (u u' : Fin 1) (jj : Fin 16384), j = ix3 u u' jj := ⟨j 0, j 1, j 2, eq_ix3 j⟩
  obtain rfl : u = 0 := Subsingleton.elim _ _
  obtain rfl : u' = 0 := Subsingleton.elim _ _
  show O (ix3 (0 : Fin 1) (0 : Fin 1) jj) = G (((cfg0.win 3).blk t).view.emb (ix3 (0 : Fin 1) (0 : Fin 1) jj))
  rw [key jj]
  refine congrArg G (funext fun a => Fin.ext ?_)
  match a with
  | ⟨0, _⟩ =>
    show t.val = win0_3.index t 0 * 1 + 1 * 0
    rw [e0]; omega
  | ⟨1, _⟩ =>
    show 0 = win0_3.index t 1 * 1 + 1 * 0
    rw [e1]
  | ⟨2, _⟩ =>
    show jj.val = win0_3.index t 2 * 16384 + 1 * jj.val
    rw [e2]; omega

/-- THE STACK of per-tile column minima after the run. -/
theorem final3 (c : Dev nD) : (dats m 0 c).arrAt 3 cfg0.N = Chamfer.tileCols (X m c) (Y m c) :=
  (dats m 0 c).arrAt_eq_of_cover 3 (Chamfer.tileCols (X m c) (Y m c)) (fun t _ => flushed3_eq m c t) cover3

end Cert.KernelIdeal.Blocks

end
-- ==== Proof.Tail.lean ====
/-
  The kernel program's last host lines, applied to what the region leaves.

  After the region the program reshapes the stack of 32 rows of per-tile column minima to a 32 × 16384 matrix, takes
  the minimum over its 32 rows from +∞, and adds the mean of the row minima to the mean of these column minima.
-/
import proofs.«179176_j9955734192761_2_alg».proof.Proof.Gen.KernelIdeal.Frame
import proofs.«179176_j9955734192761_2_alg».proof.Proof.Spec
import Idealize.ShloMosaic.Lib.StableHlo.Run

set_option maxRecDepth 16384

noncomputable section

namespace Cert.KernelIdeal.Tail

open Idealize.ShloMosaic Idealize.ShloMosaic.TcCoe Idealize.ShloMosaic.ValueIdx
open Idealize.SL Idealize.SL.Sem
open Cert.KernelIdeal Cert.KernelIdeal.Gen
open Idealize.ShloMosaic.Pipeline (Dat Cfg Window)

variable (m : (ℓ : Loc nD τ sig) → Buf (Elt Ideal) ℓ)

/-- The program's result in terms of the two arrays the region leaves. -/
theorem result_term (c : Dev nD) :
    Pipeline.afterTail₀ cfgs (dats m) 0 (V0 m) [hostOps1] c main_v13
      = Chamfer.meanSum reducesTo_S16384_S_d0 h_S_ ((dats m 0 c).arrAt 2 cfg0.N)
          (Host.reduce FloatOps.minimumf (shapeCast S32x16384 ((dats m 0 c).arrAt 3 cfg0.N) shapeCasts_S32x1x16384_S32x16384)
            (constant (F := Ideal) S_ .f32 0x7F800000#32) reducesTo_S32x16384_S16384_d0 h_S_) := by
  unfold Pipeline.afterTail₀
  show StableHlo.after hostOps1 _ (Proc.devRef .tc main_v13) = _
  after_results
  rw [show Pipeline.withArrays (cfgs 0).spec c (V0 m c) (fun w => (dats m 0 c).arrAt w (cfgs 0).N) (Proc.devRef .tc main_v6_0)
        = (dats m 0 c).arrAt 2 cfg0.N from Pipeline.withArrays_arr spec0 launch0.win.arr_inj c _ _ 2,
    show Pipeline.withArrays (cfgs 0).spec c (V0 m c) (fun w => (dats m 0 c).arrAt w (cfgs 0).N) (Proc.devRef .tc main_v6_1)
        = (dats m 0 c).arrAt 3 cfg0.N from Pipeline.withArrays_arr spec0 launch0.win.arr_inj c _ _ 3]
  rfl

end Cert.KernelIdeal.Tail

end
-- ==== Proof.TileCols.lean ====
/-
  The stack of per-tile column minima, reduced over the tiles, is the column minima of the whole cloud.

  The 16384 rows of the moved cloud are taken in 32 tiles of 512 consecutive rows, row i = 512 t + r. Each tile has,
  for every point j of the fixed cloud, the least distance to j over its 512 rows. Stacked as [32, 1, 16384], read as
  [32, 16384] (the unit axis carries nothing) and reduced by the minimum over the 32 tiles from +infinity, this is the
  least distance to j over all 16384 rows.
-/
import proofs.«179176_j9955734192761_2_alg».proof.Proof.RefSpec
import proofs.«179176_j9955734192761_2_alg».proof.Proof.SpecLemmas
import Idealize.ShloMosaic.Lib.Pipeline.Value

noncomputable section

namespace Cert.KernelIdeal.TileCols
open Idealize.ShloMosaic Idealize.ShloMosaic.ValueIdx

/-- An [a, 1, b] array cast to [a, b] reads, at (i, j), the operand at (i, 0, j): the two row-major positions are
    the same number. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The minimum over the 32 tiles of the per-tile column minima is the column minimum over all rows. -/
theorem tileCols_reduce (X Y : Chamfer.Pts 16384) (hc : (⟨3, ![32, 1, 16384]⟩ : Shape).ShapeCasts ⟨2, ![32, 16384]⟩) (h' : (⟨2, ![32, 16384]⟩ : Shape).ReducesTo [0] ⟨1, ![16384]⟩) (hu : 0 < (⟨0, ![]⟩ : Shape).numel) :
    Host.reduce FloatOps.minimumf (shapeCast (⟨2, ![32, 16384]⟩ : Shape) (Chamfer.tileCols X Y) hc) (constant (F := Ideal) ⟨0, ![]⟩ .f32 0x7F800000#32) h' hu = Chamfer.colMinArr X Y := by
  funext t
  obtain ⟨j, rfl⟩ : ∃ j : Fin 16384, t = ix1 j := ⟨t 0, eq_ix1 t⟩
  rw [Chamfer.colMinArr_ix1]
  refine (Cert.ReferenceIdeal.RefSpec.hostColMin_apply _ _ h' (by decide) hu j).trans ?_
  rw [show constant (F := Ideal) ⟨0, ![]⟩ .f32 0x7F800000#32 ix0 = (⊤ : EReal) from Cert.LibSums.ofBits_inf_f32]
  have key := Chamfer.colMin_tiles X Y j
    (fun t r => Chamfer.dist2 X Y (⟨512 * t.val + r.val, by have := t.isLt; have := r.isLt; omega⟩ : Fin 16384) j)
    (fun t r h => rfl)
  rw [← key]
  refine Finset.fold_congr fun t _ => ?_
  exact (shapeCast_a1b_ab_apply (Chamfer.tileCols X Y) hc t j).trans (Chamfer.tileCols_ix3 X Y t 0 j)

end Cert.KernelIdeal.TileCols

end
-- ==== Proof.Prefix.lean ====
/-
  The moved cloud the kernel's region finds is the reference's.

  Before its region the kernel program computes the moved cloud, points times matrix plus the transposed translation
  broadcast along the rows, by the same six host operations, in the same order and on the same three arguments, as
  the reference program does. The two programs name their shapes and their contraction records separately, with
  equal values; so the two terms are the same term.
-/
import proofs.«179176_j9955734192761_2_alg».proof.Proof.Gen.KernelIdeal.Frame
import proofs.«179176_j9955734192761_2_alg».proof.Proof.Gen.ReferenceIdeal.Read
import Idealize.ShloMosaic.Lib.StableHlo.Run

noncomputable section

namespace Cert.KernelIdeal.Prefix
open Cert.KernelIdeal Cert.KernelIdeal.Gen Idealize.ShloMosaic Idealize.ShloMosaic.TcCoe Idealize.SL.Sem

/-- The buffer of the moved cloud, as the region finds it, holds the reference's moved cloud of the same three
    arguments. -/
theorem moved_eq (m : (ℓ : Loc nD τ sig) → Buf (Elt Ideal) ℓ) (c : Dev nD) :
    (V m c main_v5 : S16384x3.Idx → EReal) = Cert.ReferenceIdeal.Read.val_main_v5 (F := Ideal) (m ((c : Thread nD τ).loc main_arg1)) (m ((c : Thread nD τ).loc main_arg2)) (m ((c : Thread nD τ).loc main_arg3)) := by
  show StableHlo.after hostOps0 (fun b => m (c, b)) (Proc.devRef .tc main_v5) = _
  after_results
  rfl

end Cert.KernelIdeal.Prefix

end
-- ==== Proof.lean ====
/-
  The fused chamfer kernel against its reference, on the extended reals.

  Both programs first move one cloud of 16384 points by the same affine map (the same six host operations). The
  reference then forms the full 16384 × 16384 matrix of squared distances |x_i|² + |y_j|² − 2⟨x_i, y_j⟩ clamped at
  zero, takes every row's and every column's least entry, and adds the two means. The kernel walks the moved cloud in
  32 tiles of 512 points; for each tile it walks the fixed cloud in 16 chunks of 1024 points, keeps a running
  minimum per tile row that starts from a large constant, and stores per chunk the tile's column minima; the host
  finishes the column minima with a minimum over the 32 tiles and forms the same two means.

  With the large constant read as +∞ the running minimum over the 16 chunks is the row's least entry, and the least
  over the 32 tiles of a tile's column minimum is the column's least entry: a least value over a finite range does not
  depend on how the range is grouped. Everything else is the same arithmetic on both sides, so no finiteness of the
  inputs is used.
-/
import proofs.«179176_j9955734192761_2_alg».proof.Defs
import proofs.«179176_j9955734192761_2_alg».proof.Proof.Gen.Kernel
import proofs.«179176_j9955734192761_2_alg».proof.Proof.Gen.Kernel.Skeleton
import proofs.«179176_j9955734192761_2_alg».proof.Proof.Gen.Kernel.Loops
import proofs.«179176_j9955734192761_2_alg».proof.Proof.Gen.Kernel.Launch
import proofs.«179176_j9955734192761_2_alg».proof.Proof.Gen.Kernel.Points
import proofs.«179176_j9955734192761_2_alg».proof.Proof.Gen.Kernel.Frame
import proofs.«179176_j9955734192761_2_alg».proof.Proof.Gen.KernelIdeal
import proofs.«179176_j9955734192761_2_alg».proof.Proof.Gen.KernelIdeal.Skeleton
import proofs.«179176_j9955734192761_2_alg».proof.Proof.Gen.KernelIdeal.Loops
import proofs.«179176_j9955734192761_2_alg».proof.Proof.Gen.KernelIdeal.Launch
import proofs.«179176_j9955734192761_2_alg».proof.Proof.Gen.KernelIdeal.Points
import proofs.«179176_j9955734192761_2_alg».proof.Proof.Gen.KernelIdeal.Frame
import proofs.«179176_j9955734192761_2_alg».proof.Proof.Gen.ReferenceIdeal
import proofs.«179176_j9955734192761_2_alg».proof.Proof.Gen.ReferenceIdeal.Run
import proofs.«179176_j9955734192761_2_alg».proof.Proof.Gen.ReferenceIdeal.Read
import proofs.«179176_j9955734192761_2_alg».proof.Proof.Gen.Pre_finite_inputs
import proofs.«179176_j9955734192761_2_alg».proof.Proof.Spec
import proofs.«179176_j9955734192761_2_alg».proof.Proof.RefSpec
import proofs.«179176_j9955734192761_2_alg».proof.Proof.Blocks
import proofs.«179176_j9955734192761_2_alg».proof.Proof.Tail
import proofs.«179176_j9955734192761_2_alg».proof.Proof.TileCols
import proofs.«179176_j9955734192761_2_alg».proof.Proof.Prefix
import Idealize.ShloMosaic.Adequacy
import Idealize.ShloMosaic.Init

noncomputable section

namespace Cert.KernelIdeal.Result

open Idealize.ShloMosaic Idealize.ShloMosaic.TcCoe Idealize.SL.Sem
open Cert.KernelIdeal Cert.KernelIdeal.Gen

variable (m : (ℓ : Loc nD τ sig) → Buf (Elt Ideal) ℓ)

/-- The kernel program's result is the chamfer loss of the moved cloud and the fixed cloud as the region finds them:
    the region leaves the row minima and the stack of per-tile column minima, and the last host lines reduce the stack
    to the column minima and form the two means. -/
theorem result_eq (c : Dev nD) :
    Pipeline.afterTail₀ cfgs (dats m) 0 (V0 m) [hostOps1] c main_v13
      = Chamfer.loss reducesTo_S16384_S_d0 h_S_ (Blocks.X m c) (Blocks.Y m c) := by
  rw [Tail.result_term, Blocks.final2, Blocks.final3, TileCols.tileCols_reduce]
  rfl

/-- The kernel program runs, ends with that result, and leaves its arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v13) = Chamfer.loss reducesTo_S16384_S_d0 h_S_ (Blocks.X m c) (Blocks.Y m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v13 (Pipeline.mem_restRefs_of main_v13 (by decide) (by decide))).trans (result_eq m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's large starting constant of the running minimum is read as +∞. -/
theorem preserves : Cert.preserves_Kernel_KernelIdeal :=
  IdealRules.named_const.statement Cert.KernelIdeal.κ "pos_big" .f32 0x7149F2CA#32 ⊤ rfl

/-- From memories that agree on the four arguments both programs end with the chamfer loss of the same two clouds:
    the kernel's by its run, the reference's by its run read as the specification; the moved cloud is one function
    of the arguments in both. -/
theorem algebraic : Cert.algebraic_KernelIdeal_ReferenceIdeal := by
  intro m ρ m' ρ' _ hagree
  refine ⟨fun c => Chamfer.loss Cert.KernelIdeal.Gen.reducesTo_S16384_S_d0 Cert.KernelIdeal.Gen.h_S_
    (Cert.KernelIdeal.Blocks.X m c) (Cert.KernelIdeal.Blocks.Y m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefSpec.ref_eq, (hagree c).1, (hagree c).2.1,
    (hagree c).2.2.1, (hagree c).2.2.2]
  show _ = Chamfer.loss _ _ (Cert.KernelIdeal.Gen.V m c Cert.KernelIdeal.main_v5) (Cert.KernelIdeal.Gen.V m c Cert.KernelIdeal.main_arg0)
  rw [Cert.KernelIdeal.Prefix.moved_eq m c, Cert.KernelIdeal.Gen.V_main_arg0 m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
